-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S16384 .f32) (main_arg3 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S16384x1 : Shape := ⟨2, ![16384, 1]⟩
abbrev S4096x64 : Shape := ⟨2, ![4096, 64]⟩
abbrev S1024x4096 : Shape := ⟨2, ![1024, 4096]⟩
abbrev S1024x1 : Shape := ⟨2, ![1024, 1]⟩
abbrev S1024x64 : Shape := ⟨2, ![1024, 64]⟩
abbrev S1024x256 : Shape := ⟨2, ![1024, 256]⟩
abbrev S256x64 : Shape := ⟨2, ![256, 64]⟩

abbrev nBuf : Space → Nat
  | .hbm => 7
  | .vmem => 15
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .f32⟩
  | .hbm, ⟨3, _⟩ => ⟨S64x64, .f32⟩
  | .hbm, ⟨4, _⟩ => ⟨S16384x1, .f32⟩
  | .hbm, ⟨5, _⟩ => ⟨S16384x64, .bf16⟩
  | .hbm, ⟨6, _⟩ => ⟨S16384x64, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S4096x64, .bf16⟩
  | .local _ .vmem, ⟨4, _⟩ => ⟨S4096x64, .bf16⟩
  | .local _ .vmem, ⟨5, _⟩ => ⟨S1024x4096, .f32⟩
  | .local _ .vmem, ⟨6, _⟩ => ⟨S1024x4096, .f32⟩
  | .local _ .vmem, ⟨7, _⟩ => ⟨S16384x64, .bf16⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

@[reducible] def k1_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k1_mult1 (k1_t1 : Fin k1_t1_loop.trips) : BitVec 32 :=
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c256_i32 : BitVec 32 := 256#32
  let v9 : BitVec 32 := Scalar.muli v8 c256_i32
  v9
def k1_mult2 (i : grid1.Coords) (k1_t1 : Fin k1_t1_loop.trips) : BitVec 32 :=
  let arg1 : BitVec 32 := BitVec.ofNat 32 (i 1).val
  let c4096_i32 : BitVec 32 := 4096#32
  let v11 : BitVec 32 := Scalar.muli arg1 c4096_i32
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c256_i32_6 : BitVec 32 := 256#32
  let v12 : BitVec 32 := Scalar.muli v8 c256_i32_6
  let v13 : BitVec 32 := Scalar.addi v11 v12
  v13
def k1_off1 (k1_t1 : Fin k1_t1_loop.trips) : Fin 2 → Nat :=
  let c0 : Index := 0#32
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c256_i32 : BitVec 32 := 256#32
  let v9 : BitVec 32 := Scalar.muli v8 c256_i32
  let v10 : BitVec 32 := v9
  let v15 : Index := Scalar.indexCast v10
  ![0, v15.toNat]
def k1_off2 (i : grid1.Coords) (k1_t1 : Fin k1_t1_loop.trips) : Fin 2 → Nat :=
  let arg1 : BitVec 32 := BitVec.ofNat 32 (i 1).val
  let c4096_i32 : BitVec 32 := 4096#32
  let v11 : BitVec 32 := Scalar.muli arg1 c4096_i32
  let c0_i32_5 : BitVec 32 := 0#32
  let c0_i32_1 : BitVec 32 := 0#32
  let c1_i32 : BitVec 32 := 1#32
  let arg8 : BitVec 32 := Scf.iv c0_i32_1 c1_i32 k1_t1
  let c1_i32_4 : BitVec 32 := 1#32
  let v7 : BitVec 32 := Scalar.muli arg8 c1_i32_4
  let v8 : BitVec 32 := Scalar.addi c0_i32_5 v7
  let c256_i32_6 : BitVec 32 := 256#32
  let v12 : BitVec 32 := Scalar.muli v8 c256_i32_6
  let v13 : BitVec 32 := Scalar.addi v11 v12
  let v14 : BitVec 32 := v13
  let v18 : Index := Scalar.indexCast v14
  let c0_7 : Index := 0#32
  ![v18.toNat, 0]
def k1_cond2 (i : grid1.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S16384_S16384x1 : S16384.ShapeCasts S16384x1
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S4096x64_S4096x64_0_0 : (Rect.unit (s := S4096x64) ![0, 0] S4096x64.size inb_S4096x64_S4096x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S1024x256 : 0 < S1024x256.numel
  h_S256x64 : 0 < S256x64.numel
  shapeCasts_S256x64_S256x64 : S256x64.ShapeCasts S256x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  dot_S4096x64_S64x64_S4096x64_1_0_0_1_n_n_wf : DotDims.WF S4096x64 S64x64 S4096x64 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S16384x64.size a
  hwx0_2 : ∀ i : grid0.Coords, EltTy.bits .bf16 = 32 ∨ (Rect.block (s := S16384x64) S4096x64.size (cc0_transform_2 i) (hinb0_2 i)).WholeWords (EltTy.packing .bf16)
  hrank1 : 0 < grid1.rank
  k1_t1_ok : k1_t1_loop.OK
  k1_mult1_dvd : ∀ k1_t1 : Fin k1_t1_loop.trips, 256 ∣ (k1_mult1 k1_t1).toNat
  k1_mult2_dvd : ∀ (i : grid1.Coords) (k1_t1 : Fin k1_t1_loop.trips), 256 ∣ (k1_mult2 i k1_t1).toNat
  k1_off1_inb : ∀ k1_t1 : Fin k1_t1_loop.trips, ∀ a, (k1_off1 k1_t1) a + S1024x256.size a ≤ S1024x4096.size a
  k1_off2_inb : ∀ (i : grid1.Coords) (k1_t1 : Fin k1_t1_loop.trips), ∀ a, (k1_off2 i k1_t1) a + S256x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .f32 = 32 ∨ (Rect.block (s := S16384x16384) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S16384x1 : Shape := ⟨2, ![16384, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .f32⟩
  | .hbm, ⟨3, _⟩ => ⟨S64x64, .f32⟩
  | .hbm, ⟨4, _⟩ => ⟨S16384x64, .f32⟩
  | .hbm, ⟨5, _⟩ => ⟨S16384x64, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S16384x1_S16384x64_0_1 : S16384x1.BroadcastsInDim S16384x64 (![0, 1] : Fin 2 → Fin S16384x64.rank)
  bcast_S_S16384 : S_.BroadcastsInDim S16384 (![] : Fin 0 → Fin S16384.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Kernel.Common.lean ====
/-
  What the two regions' proofs share, at the contents `V` the region finds in the core's buffers when it is
  entered: each window's block at a grid point, that an input window's staging buffer holds that block at every
  point (fetched there or kept from the point before), the two branch conditions of the aggregation body in
  closed form over the grid (the accumulator is reset where the reduction coordinate is 0 and the result is
  produced where it is 3), where the result window is idle, and the class invariant opened into the scratch
  accumulator and the generator register.
-/
import proofs.«153434_j56341380989595_2_alg».proof.Proof.Gen.Kernel.Launch
import proofs.«153434_j56341380989595_2_alg».proof.Proof.Gen.Kernel.Skeleton
import proofs.«153434_j56341380989595_2_alg».proof.Proof.Gen.Kernel.Points
import proofs.«153434_j56341380989595_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first region: the projection X W, one block of 4096 rows per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second region: the aggregation, 16 row tiles by 4 reduction tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The aggregation body's two branches, over the grid -/

/-- The accumulator is reset: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result is produced: the reduction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last reduction step nothing is stored into the result window and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging memrefs as the pipeline passes them -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)

abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the second kernel's own. -/
abbrev scM1 : Memref sig .tc .vmem S1024x64 .f32 := Memref.whole cc1_scratch0

/-- The class invariant of the second region with the accumulator owned at some contents: what is left of the
    scoped buffers is the first region's staging buffers, each at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.Kernel.Region0.lean ====
/-
  The first region: the projection X W, block by block. One grid point loads a block of 4096 rows of X and the
  whole of W, multiplies them and stores the product over the whole result block; stated here are what that
  leaves in the result window's buffer, the body's run on whole staging buffers, the proof data of the pipeline
  and the body obligation at every point.
-/
import proofs.«153434_j56341380989595_2_alg».proof.Proof.Kernel.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: each window's whole block -/

abbrev r0 : Rect S4096x64 := Rect.unit (s := S4096x64) ![0, 0] S4096x64.size inb_S4096x64_S4096x64_0_0
abbrev r0w : Rect S64x64 := Rect.unit (s := S64x64) ![0, 0] S64x64.size inb_S64x64_S64x64_0_0

/-- What a point leaves in the result window's buffer: one store of the whole block, the product of the block
    of 4096 rows of X with the whole of W. -/
def out0_2 (x0 : Vec F S4096x64 .f32) (x1 : Vec F S64x64 .f32) : Vec F S4096x64 .bf16 :=
  View.canon [⟨r0, k0_pay1 (View.ld x0 r0) (View.ld x1 r0w)⟩]

/-- That one store covers the buffer. -/
theorem cover0_2 (p0 : Vec F S4096x64 .bf16) (y : S4096x64.Idx) :
    ∃ pc ∈ ([⟨r0, p0⟩] : List (View.Piece (Elt F) S4096x64 .bf16)), y ∈ pc.1.set :=
  View.cover_of_tiled [⟨r0, p0⟩] S4096x64.size (by rfl) y

set_option maxHeartbeats 1000000 in
/-- The projection body on whole staging buffers, the two inputs' at their contents and the result's at anything,
    runs to the end holding the inputs' as they were and the result's at `out0_2` of them. -/
theorem sound_kernel0 (c : Dev nD) (E : Set ℕ) (i : grid0.Coords) (arg1 : Memref sig .tc .vmem S4096x64 .f32) (harg1 : arg1.IsWhole) (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- After the body at point `t` each input's buffer holds its block and the result's the product of the two;
    the invariant is the class's (the other scoped buffers and the generator register, untouched); nothing is
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Run1B.lean ====
/-
  The aggregation body at a middle reduction step (the reduction coordinate neither 0 nor 3): the accumulator is
  neither reset nor read out, only the sixteen chunk products are added to it, one per trip of the counted loop.
  Stated: on whole staging buffers, the adjacency tile and the projected features at their contents and the
  accumulator at what the step before left, the body runs to the end holding the two inputs as they were and the
  accumulator with the loop's stores written over it.
-/
import proofs.«153434_j56341380989595_2_alg».proof.Proof.Kernel.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) :
    { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel.Run1A.lean ====
/-
  The aggregation body at the first reduction step (the reduction coordinate is 0): the accumulator is reset to
  zero and the sixteen chunk products of the step are added to it; nothing is read out. Stated: on whole staging
  buffers, the adjacency tile and the projected features at their contents and the accumulator at anything, the
  body runs to the end holding the two inputs as they were and the accumulator with the reset and the loop's
  stores written over it.
-/
import proofs.«153434_j56341380989595_2_alg».proof.Proof.Kernel.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) :
    { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel.Run1C.lean ====
/-
  The aggregation body at the last reduction step (the reduction coordinate is 3): the sixteen chunk products of
  the step are added to the accumulator, then the result block is produced from it — the accumulator rectified,
  scaled row by row by the node weights, plus the node's own features scaled by the complementary weights — and
  stored over the whole result window. Stated: on whole staging buffers, the four inputs at their contents, the
  result window at anything and the accumulator at what the step before left, the body runs to the end holding
  the inputs as they were, and the result window and the accumulator each with its stores written over it.
-/
import proofs.«153434_j56341380989595_2_alg».proof.Proof.Kernel.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Kernel.Loop1.lean ====
/-
  The counted loop of the aggregation body, trip by trip: each trip stores over the whole accumulator the sum of
  what it found there and the product of one chunk of 256 columns of the adjacency tile with the matching 256
  rows of the projected features. Hence the stores of one or more trips cover the accumulator.
-/
import proofs.«153434_j56341380989595_2_alg».proof.Proof.Kernel.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The views through which the accumulator's and the result window's contents are stated. -/
abbrev VS1 : View sig .tc .vmem S1024x64 .f32 := scM1.view
abbrev VO1 : View sig .tc .vmem S1024x64 .f32 := (Memref.whole cc1_stg4_0 : Memref sig .tc .vmem S1024x64 .f32).view

abbrev rS : Rect S1024x64 := Rect.unit (s := S1024x64) ![0, 0] S1024x64.size inb_S1024x64_S1024x64_0_0

/-! ## One trip of the loop: a store over the whole accumulator -/

/-- A trip's one store: over the whole accumulator, the accumulator as found plus the product of the trip's
    chunk of the adjacency tile with its chunk of the projected features. -/
theorem tripL_eq (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (X2 : BufTy.Contents (Elt F) arg2.view.ty) (X3 : BufTy.Contents (Elt F) arg3.view.ty) (k : Fin k1_t1_loop.trips) (f : BufTy.Contents (Elt F) arg7.view.ty) :
    tripL_k1_t1 (F := F) 𝒱 c bd i arg2 harg2 arg3 harg3 arg4 harg4 arg5 harg5 arg6 harg6 arg7 harg7 X2 X3 k f
      = [⟨rS, k1_pay2 (View.readAt (Elt F) arg2.view (Rect.unit (s := S1024x4096) (k1_off1 k) S1024x256.size (k1_off1_inb k)).toLoadRect X2)
          (View.readAt (Elt F) arg3.view (Rect.unit (s := S16384x64) (k1_off2 i k) S256x64.size (k1_off2_inb i k)).toLoadRect X3)
          (View.readAt (Elt F) arg7.view rS.toLoadRect f)⟩] := by
  unfold tripL_k1_t1 trip_k1_t1
  rfl

/-- So the stores of any positive number of trips cover the accumulator: the last trip's alone does. -/
theorem pb_cover (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (X2 : BufTy.Contents (Elt F) arg2.view.ty) (X3 : BufTy.Contents (Elt F) arg3.view.ty) (G : BufTy.Contents (Elt F) arg7.view.ty)
    (k : ℕ) (hk : k < k1_t1_loop.trips) (y : S1024x64.Idx) :
    ∃ pc ∈ pb_k1_t1 (F := F) 𝒱 c bd i arg2 harg2 arg3 harg3 arg4 harg4 arg5 harg5 arg6 harg6 arg7 harg7 X2 X3 G (k + 1), y ∈ pc.1.set := by
  have h := pb_k1_t1_succ (F := F) 𝒱 c bd i arg2 harg2 arg3 harg3 arg4 harg4 arg5 harg5 arg6 harg6 arg7 harg7 X2 X3 G ⟨k, hk⟩
  rw [show (⟨k, hk⟩ : Fin k1_t1_loop.trips).val + 1 = k + 1 from rfl] at h
  rw [h, tripL_eq]
  obtain ⟨pc, hpc, hy⟩ := View.cover_of_tiled [(⟨rS, _⟩ : View.Piece (Elt F) S1024x64 .f32)] S1024x64.size (by rfl) y
  exact ⟨pc, List.mem_append_left _ hpc, hy⟩

end Cert.Kernel.Hand

end
-- ==== Proof.Kernel.Region1.lean ====
/-
  The second region's proof data. What the accumulator holds after each grid point is a recursion on the point:
  at a first reduction step it restarts from zero, at every other it continues from the point before; the result
  window is written from it at the last reduction step. The pipeline's invariant carries the accumulator at those
  contents from point to point; the inputs' staging buffers hold their blocks at every point.
-/
import proofs.«153434_j56341380989595_2_alg».proof.Proof.Kernel.Loop1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem trips16 : Scf.trips (0#32) (Scalar.addi 0#32 16#32) 1#32 = 15 + 1 := by decide +kernel
theorem loop_trips : k1_t1_loop.trips = 15 + 1 := by decide +kernel

/-! ## What each case's stores cover -/

theorem scover1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) (y : S1024x64.Idx) :
    ∃ pc ∈ (kernelRun1_B c i arg2 harg2 arg3 harg3 arg4 harg4 arg5 harg5 arg6 harg6 arg7 harg7 hc0 hc1 x0 x1 xs0).1, y ∈ pc.1.set := by
  unfold kernelRun1_B; dsimp only
  rw [trips16]
  exact pb_cover _ _ _ i arg2 harg2 arg3 harg3 arg4 harg4 arg5 harg5 arg6 harg6 arg7 harg7 _ _ _ 15 (by rw [loop_trips]; omega) y

theorem scover1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) (y : S1024x64.Idx) :
    ∃ pc ∈ (kernelRun1_A c i arg2 harg2 arg3 harg3 arg4 harg4 arg5 harg5 arg6 harg6 arg7 harg7 hc0 hc1 x0 x1).1, y ∈ pc.1.set := by
  unfold kernelRun1_A; dsimp only
  rw [trips16]
  obtain ⟨pc, h, hy⟩ := pb_cover (F := F) Variants.none c none i arg2 harg2 arg3 harg3 arg4 harg4 arg5 harg5 arg6 harg6 arg7 harg7 (harg2.unread x0) (harg3.unread x1) (arg7.view.writes (Elt F) arg7.view.junk kernelRun1_A.sl.HS0_1) 15 (by rw [loop_trips]; omega) y
  exact ⟨pc, List.mem_append_left _ h, hy⟩

theorem scover1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set := by
  unfold kernelRun1_C; dsimp only
  rw [trips16]
  exact pb_cover _ _ _ i arg2 harg2 arg3 harg3 arg4 harg4 arg5 harg5 arg6 harg6 arg7 harg7 _ _ _ 15 (by rw [loop_trips]; omega) y

theorem cover1_C_4 (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set := by
  unfold kernelRun1_C; dsimp only
  exact View.cover_of_tiled [(⟨rS, _⟩ : View.Piece (Elt F) S1024x64 .f32)] S1024x64.size (by rfl) y

/-! ## What each case leaves: its stores read back -/

def sout1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) : Vec F S1024x64 .f32 :=
  VS1.read (Elt F) (VS1.writes (Elt F) VS1.junk (kernelRun1_A c i arg2 harg2 arg3 harg3 arg4 harg4 arg5 harg5 arg6 harg6 arg7 harg7 hc0 hc1 x0 x1).1)
def sout1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) : Vec F S1024x64 .f32 :=
  VS1.read (Elt F) (VS1.writes (Elt F) VS1.junk (kernelRun1_B c i arg2 harg2 arg3 harg3 arg4 harg4 arg5 harg5 arg6 harg6 arg7 harg7 hc0 hc1 x0 x1 xs0).1)
def sout1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) : Vec F S1024x64 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)
def out1_C_4 (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) : Vec F S1024x64 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-! ## The accumulation, point by point -/

/-- What the result window's buffer and the accumulator hold after the body at position `n` of the grid (a pair):
    at a first reduction step the accumulator restarts from zero, at the others it continues from the position
    before; the result window is written at the last reduction step only (at the other positions its component
    is never read: the accumulator's value stands in). -/
def outsAt1 (c : Dev nD) : (n : ℕ) → n < cfg1.N → Vec F S1024x64 .f32 × Vec F S1024x64 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => absurd (show 0 % 4 = 3 from h) (by decide)) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => absurd (show 0 % 4 = 3 from h) (by decide)) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) := by
  obtain ⟨n, hn⟩ := t
  cases n with
  | zero => rfl
  | succ n =>
    have h0' : (n + 1) % 4 = 0 := h0
    have h1' : ¬(n + 1) % 4 = 3 := h1
    rw [outsAt1]; simp only [dif_pos h0', dif_neg h1']

theorem outsAt1_B (c : Dev nD) (t : Fin cfg1.N) (h0 : ¬t.val % 4 = 0) (h1 : ¬t.val % 4 = 3) :
    (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 := by
  obtain ⟨n, hn⟩ := t
  cases n with
  | zero => exact absurd (Nat.zero_mod _) h0
  | succ n =>
    have h0' : ¬(n + 1) % 4 = 0 := h0
    have h1' : ¬(n + 1) % 4 = 3 := h1
    rw [outsAt1]; simp only [dif_neg h0', dif_neg h1']; rfl

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n =>
    have h0' : ¬(n + 1) % 4 = 0 := h0
    have h1' : (n + 1) % 4 = 3 := h1
    rw [outsAt1]; simp only [dif_neg h0', dif_pos h1']; rfl

/-! ## The invariant that carries the accumulator -/

/-- Before the first point the class's invariant (the accumulator at anything); afterwards the same with the
    accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.Kernel.Body1.lean ====
/-
  The second region's body obligation: at every grid point the aggregation body, called on the staging buffers
  the pipeline passes it, runs from the proof data's state before the point to its state after it. The point's
  reduction coordinate decides which of the three runs applies.
-/
import proofs.«153434_j56341380989595_2_alg».proof.Proof.Kernel.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the reduction coordinate: the inputs' buffers hold their blocks; the invariant hands
    the body the accumulator (at anything before the first point of all, else at what the point before left)
    and takes it back at this point's contents; away from the last reduction step the result window goes back as
    it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_B c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

end Cert.Kernel.Hand

end
-- ==== Proof.Kernel.Main.lean ====
/-
  @main from the launch to the return: the host's reshape of the node weights, the projection region, the
  aggregation region. The core's buffer contents at each boundary are a fold from the launch memory; the two
  regions enter the launch as segments over the thread state "every unscoped buffer at the boundary's contents,
  the generator register at some state, nothing owed"; the run ends with every unscoped buffer at the last
  boundary's contents, whence the frame (each argument walks back through the fold to the launch memory) and the
  result array named.
-/
import proofs.«153434_j56341380989595_2_alg».proof.Proof.Kernel.Region0
import proofs.«153434_j56341380989595_2_alg».proof.Proof.Kernel.Body1
import proofs.«153434_j56341380989595_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- At launch. -/
abbrev W0 : Dev nD → Valuation τ sig (Elt F) := fun c b => (s₀ m ρ).mem ((c : Dev nD), b)
/-- After the host's reshape of the node weights to a column (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: the reshape writes its own result only, and a region reads an argument
    through an input window or bypasses it -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)

theorem W3_main_arg0 (c : Dev nD) : W3 m ρ c (Proc.devRef .tc main_arg0) = m ((c : Thread nD τ).loc main_arg0) :=
  ((W3_arr m ρ c 3).trans (((dat1 (V2 m ρ) c).arrAt_in 3 rfl _).trans (A_eq1 (V2 m ρ) c 3))).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the class invariant enters the
    pipeline's own at the first point and is given back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The same run with the result named: the result array ends at the last boundary's contents of it, the
    arguments as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.Kernel.Hand

end
-- ==== Proof.KernelIdeal.Common.lean ====
/-
  What the two regions' proofs share, at the contents `V` the region finds in the core's buffers when it is
  entered: each window's block at a grid point, that an input window's staging buffer holds that block at every
  point (fetched there or kept from the point before), the two branch conditions of the aggregation body in
  closed form over the grid (the accumulator is reset where the reduction coordinate is 0 and the result is
  produced where it is 3), where the result window is idle, and the class invariant opened into the scratch
  accumulator and the generator register.
-/
import proofs.«153434_j56341380989595_2_alg».proof.Proof.Gen.KernelIdeal.Launch
import proofs.«153434_j56341380989595_2_alg».proof.Proof.Gen.KernelIdeal.Skeleton
import proofs.«153434_j56341380989595_2_alg».proof.Proof.Gen.KernelIdeal.Points
import proofs.«153434_j56341380989595_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first region: the projection X W, one block of 4096 rows per point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second region: the aggregation, 16 row tiles by 4 reduction tiles -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The aggregation body's two branches, over the grid -/

/-- The accumulator is reset: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The result is produced: the reduction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last reduction step nothing is stored into the result window and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The staging memrefs as the pipeline passes them -/

abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)

abbrev ms1_0 (t : Fin cfg1.N) : Memref sig .tc .vmem S1024x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the second kernel's own. -/
abbrev scM1 : Memref sig .tc .vmem S1024x64 .f32 := Memref.whole cc1_scratch0

/-- The class invariant of the second region with the accumulator owned at some contents: what is left of the
    scoped buffers is the first region's staging buffers, each at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KernelIdeal.Region0.lean ====
/-
  The first region: the projection X W, block by block. One grid point loads a block of 4096 rows of X and the
  whole of W, multiplies them and stores the product over the whole result block; stated here are what that
  leaves in the result window's buffer, the body's run on whole staging buffers, the proof data of the pipeline
  and the body obligation at every point.
-/
import proofs.«153434_j56341380989595_2_alg».proof.Proof.KernelIdeal.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: each window's whole block -/

abbrev r0 : Rect S4096x64 := Rect.unit (s := S4096x64) ![0, 0] S4096x64.size inb_S4096x64_S4096x64_0_0
abbrev r0w : Rect S64x64 := Rect.unit (s := S64x64) ![0, 0] S64x64.size inb_S64x64_S64x64_0_0

/-- What a point leaves in the result window's buffer: one store of the whole block, the product of the block
    of 4096 rows of X with the whole of W. -/
def out0_2 (x0 : Vec F S4096x64 .f32) (x1 : Vec F S64x64 .f32) : Vec F S4096x64 .bf16 :=
  View.canon [⟨r0, k0_pay1 (View.ld x0 r0) (View.ld x1 r0w)⟩]

/-- That one store covers the buffer. -/
theorem cover0_2 (p0 : Vec F S4096x64 .bf16) (y : S4096x64.Idx) :
    ∃ pc ∈ ([⟨r0, p0⟩] : List (View.Piece (Elt F) S4096x64 .bf16)), y ∈ pc.1.set :=
  View.cover_of_tiled [⟨r0, p0⟩] S4096x64.size (by rfl) y

set_option maxHeartbeats 1000000 in
/-- The projection body on whole staging buffers, the two inputs' at their contents and the result's at anything,
    runs to the end holding the inputs' as they were and the result's at `out0_2` of them. -/
theorem sound_kernel0 (c : Dev nD) (E : Set ℕ) (i : grid0.Coords) (arg1 : Memref sig .tc .vmem S4096x64 .f32) (harg1 : arg1.IsWhole) (arg2 : Memref sig .tc .vmem S64x64 .f32) (harg2 : arg2.IsWhole) (arg3 : Memref sig .tc .vmem S4096x64 .bf16) (harg3 : arg3.IsWhole)
    (x0 : Vec F S4096x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- After the body at point `t` each input's buffer holds its block and the result's the product of the two;
    the invariant is the class's (the other scoped buffers and the generator register, untouched); nothing is
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Run1B.lean ====
/-
  The aggregation body at a middle reduction step (the reduction coordinate neither 0 nor 3): the accumulator is
  neither reset nor read out, only the sixteen chunk products are added to it, one per trip of the counted loop.
  Stated: on whole staging buffers, the adjacency tile and the projected features at their contents and the
  accumulator at what the step before left, the body runs to the end holding the two inputs as they were and the
  accumulator with the loop's stores written over it.
-/
import proofs.«153434_j56341380989595_2_alg».proof.Proof.KernelIdeal.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) :
    { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal.Run1A.lean ====
/-
  The aggregation body at the first reduction step (the reduction coordinate is 0): the accumulator is reset to
  zero and the sixteen chunk products of the step are added to it; nothing is read out. Stated: on whole staging
  buffers, the adjacency tile and the projected features at their contents and the accumulator at anything, the
  body runs to the end holding the two inputs as they were and the accumulator with the reset and the loop's
  stores written over it.
-/
import proofs.«153434_j56341380989595_2_alg».proof.Proof.KernelIdeal.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) :
    { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, fun E K => ?run⟩
  case run =>
    simp only [cc1__agg_kernel_eq_skeleton]; unfold cc1__agg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal.Run1C.lean ====
/-
  The aggregation body at the last reduction step (the reduction coordinate is 3): the sixteen chunk products of
  the step are added to the accumulator, then the result block is produced from it — the accumulator rectified,
  scaled row by row by the node weights, plus the node's own features scaled by the complementary weights — and
  stored over the whole result window. Stated: on whole staging buffers, the four inputs at their contents, the
  result window at anything and the accumulator at what the step before left, the body runs to the end holding
  the inputs as they were, and the result window and the accumulator each with its stores written over it.
-/
import proofs.«153434_j56341380989595_2_alg».proof.Proof.KernelIdeal.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.Loop1.lean ====
/-
  The counted loop of the aggregation body, trip by trip: each trip stores over the whole accumulator the sum of
  what it found there and the product of one chunk of 256 columns of the adjacency tile with the matching 256
  rows of the projected features. Hence the stores of one or more trips cover the accumulator.
-/
import proofs.«153434_j56341380989595_2_alg».proof.Proof.KernelIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The views through which the accumulator's and the result window's contents are stated. -/
abbrev VS1 : View sig .tc .vmem S1024x64 .f32 := scM1.view
abbrev VO1 : View sig .tc .vmem S1024x64 .f32 := (Memref.whole cc1_stg4_0 : Memref sig .tc .vmem S1024x64 .f32).view

abbrev rS : Rect S1024x64 := Rect.unit (s := S1024x64) ![0, 0] S1024x64.size inb_S1024x64_S1024x64_0_0

/-! ## One trip of the loop: a store over the whole accumulator -/

/-- A trip's one store: over the whole accumulator, the accumulator as found plus the product of the trip's
    chunk of the adjacency tile with its chunk of the projected features. -/
theorem tripL_eq (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (X2 : BufTy.Contents (Elt F) arg2.view.ty) (X3 : BufTy.Contents (Elt F) arg3.view.ty) (k : Fin k1_t1_loop.trips) (f : BufTy.Contents (Elt F) arg7.view.ty) :
    tripL_k1_t1 (F := F) 𝒱 c bd i arg2 harg2 arg3 harg3 arg4 harg4 arg5 harg5 arg6 harg6 arg7 harg7 X2 X3 k f
      = [⟨rS, k1_pay2 (View.readAt (Elt F) arg2.view (Rect.unit (s := S1024x4096) (k1_off1 k) S1024x256.size (k1_off1_inb k)).toLoadRect X2)
          (View.readAt (Elt F) arg3.view (Rect.unit (s := S16384x64) (k1_off2 i k) S256x64.size (k1_off2_inb i k)).toLoadRect X3)
          (View.readAt (Elt F) arg7.view rS.toLoadRect f)⟩] := by
  unfold tripL_k1_t1 trip_k1_t1
  rfl

/-- So the stores of any positive number of trips cover the accumulator: the last trip's alone does. -/
theorem pb_cover (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (X2 : BufTy.Contents (Elt F) arg2.view.ty) (X3 : BufTy.Contents (Elt F) arg3.view.ty) (G : BufTy.Contents (Elt F) arg7.view.ty)
    (k : ℕ) (hk : k < k1_t1_loop.trips) (y : S1024x64.Idx) :
    ∃ pc ∈ pb_k1_t1 (F := F) 𝒱 c bd i arg2 harg2 arg3 harg3 arg4 harg4 arg5 harg5 arg6 harg6 arg7 harg7 X2 X3 G (k + 1), y ∈ pc.1.set := by
  have h := pb_k1_t1_succ (F := F) 𝒱 c bd i arg2 harg2 arg3 harg3 arg4 harg4 arg5 harg5 arg6 harg6 arg7 harg7 X2 X3 G ⟨k, hk⟩
  rw [show (⟨k, hk⟩ : Fin k1_t1_loop.trips).val + 1 = k + 1 from rfl] at h
  rw [h, tripL_eq]
  obtain ⟨pc, hpc, hy⟩ := View.cover_of_tiled [(⟨rS, _⟩ : View.Piece (Elt F) S1024x64 .f32)] S1024x64.size (by rfl) y
  exact ⟨pc, List.mem_append_left _ hpc, hy⟩

end Cert.KernelIdeal.Hand

end
-- ==== Proof.KernelIdeal.Region1.lean ====
/-
  The second region's proof data. What the accumulator holds after each grid point is a recursion on the point:
  at a first reduction step it restarts from zero, at every other it continues from the point before; the result
  window is written from it at the last reduction step. The pipeline's invariant carries the accumulator at those
  contents from point to point; the inputs' staging buffers hold their blocks at every point.
-/
import proofs.«153434_j56341380989595_2_alg».proof.Proof.KernelIdeal.Loop1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem trips16 : Scf.trips (0#32) (Scalar.addi 0#32 16#32) 1#32 = 15 + 1 := by decide +kernel
theorem loop_trips : k1_t1_loop.trips = 15 + 1 := by decide +kernel

/-! ## What each case's stores cover -/

theorem scover1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) (y : S1024x64.Idx) :
    ∃ pc ∈ (kernelRun1_B c i arg2 harg2 arg3 harg3 arg4 harg4 arg5 harg5 arg6 harg6 arg7 harg7 hc0 hc1 x0 x1 xs0).1, y ∈ pc.1.set := by
  unfold kernelRun1_B; dsimp only
  rw [trips16]
  exact pb_cover _ _ _ i arg2 harg2 arg3 harg3 arg4 harg4 arg5 harg5 arg6 harg6 arg7 harg7 _ _ _ 15 (by rw [loop_trips]; omega) y

theorem scover1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) (y : S1024x64.Idx) :
    ∃ pc ∈ (kernelRun1_A c i arg2 harg2 arg3 harg3 arg4 harg4 arg5 harg5 arg6 harg6 arg7 harg7 hc0 hc1 x0 x1).1, y ∈ pc.1.set := by
  unfold kernelRun1_A; dsimp only
  rw [trips16]
  obtain ⟨pc, h, hy⟩ := pb_cover (F := F) Variants.none c none i arg2 harg2 arg3 harg3 arg4 harg4 arg5 harg5 arg6 harg6 arg7 harg7 (harg2.unread x0) (harg3.unread x1) (arg7.view.writes (Elt F) arg7.view.junk kernelRun1_A.sl.HS0_1) 15 (by rw [loop_trips]; omega) y
  exact ⟨pc, List.mem_append_left _ h, hy⟩

theorem scover1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set := by
  unfold kernelRun1_C; dsimp only
  rw [trips16]
  exact pb_cover _ _ _ i arg2 harg2 arg3 harg3 arg4 harg4 arg5 harg5 arg6 harg6 arg7 harg7 _ _ _ 15 (by rw [loop_trips]; omega) y

theorem cover1_C_4 (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set := by
  unfold kernelRun1_C; dsimp only
  exact View.cover_of_tiled [(⟨rS, _⟩ : View.Piece (Elt F) S1024x64 .f32)] S1024x64.size (by rfl) y

/-! ## What each case leaves: its stores read back -/

def sout1_A (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x4096 .f32) (x1 : Vec F S16384x64 .bf16) : Vec F S1024x64 .f32 :=
  VS1.read (Elt F) (VS1.writes (Elt F) VS1.junk (kernelRun1_A c i arg2 harg2 arg3 harg3 arg4 harg4 arg5 harg5 arg6 harg6 arg7 harg7 hc0 hc1 x0 x1).1)
def sout1_B (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x4096 .f32) (x1 : Vec F S16384x64 .bf16) (xs0 : Vec F S1024x64 .f32) : Vec F S1024x64 .f32 :=
  VS1.read (Elt F) (VS1.writes (Elt F) VS1.junk (kernelRun1_B c i arg2 harg2 arg3 harg3 arg4 harg4 arg5 harg5 arg6 harg6 arg7 harg7 hc0 hc1 x0 x1 xs0).1)
def sout1_C (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) : Vec F S1024x64 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)
def out1_C_4 (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x4096 .f32) (x1 : Vec F S16384x64 .bf16) (x2 : Vec F S1024x1 .f32) (x3 : Vec F S1024x64 .f32) (xs0 : Vec F S1024x64 .f32) : Vec F S1024x64 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

/-! ## The accumulation, point by point -/

/-- What the result window's buffer and the accumulator hold after the body at position `n` of the grid (a pair):
    at a first reduction step the accumulator restarts from zero, at the others it continues from the position
    before; the result window is written at the last reduction step only (at the other positions its component
    is never read: the accumulator's value stands in). -/
def outsAt1 (c : Dev nD) : (n : ℕ) → n < cfg1.N → Vec F S1024x64 .f32 × Vec F S1024x64 .f32
  | 0, hn => (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => absurd (show 0 % 4 = 3 from h) (by decide)) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => absurd (show 0 % 4 = 3 from h) (by decide)) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then False.elim (by omega)
      else (sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) := by
  obtain ⟨n, hn⟩ := t
  cases n with
  | zero => rfl
  | succ n =>
    have h0' : (n + 1) % 4 = 0 := h0
    have h1' : ¬(n + 1) % 4 = 3 := h1
    rw [outsAt1]; simp only [dif_pos h0', dif_neg h1']

theorem outsAt1_B (c : Dev nD) (t : Fin cfg1.N) (h0 : ¬t.val % 4 = 0) (h1 : ¬t.val % 4 = 3) :
    (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2 := by
  obtain ⟨n, hn⟩ := t
  cases n with
  | zero => exact absurd (Nat.zero_mod _) h0
  | succ n =>
    have h0' : ¬(n + 1) % 4 = 0 := h0
    have h1' : ¬(n + 1) % 4 = 3 := h1
    rw [outsAt1]; simp only [dif_neg h0', dif_neg h1']; rfl

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n =>
    have h0' : ¬(n + 1) % 4 = 0 := h0
    have h1' : (n + 1) % 4 = 3 := h1
    rw [outsAt1]; simp only [dif_neg h0', dif_pos h1']; rfl

/-! ## The invariant that carries the accumulator -/

/-- Before the first point the class's invariant (the accumulator at anything); afterwards the same with the
    accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KernelIdeal.Body1.lean ====
/-
  The second region's body obligation: at every grid point the aggregation body, called on the staging buffers
  the pipeline passes it, runs from the proof data's state before the point to its state after it. The point's
  reduction coordinate decides which of the three runs applies.
-/
import proofs.«153434_j56341380989595_2_alg».proof.Proof.KernelIdeal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point, by the reduction coordinate: the inputs' buffers hold their blocks; the invariant hands
    the body the accumulator (at anything before the first point of all, else at what the point before left)
    and takes it back at this point's contents; away from the last reduction step the result window goes back as
    it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 64 := lt_of_lt_of_eq t.isLt (show cfg1.N = 64 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HR0, HR1, HR2, HR3, HR4, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HR0 HR1 HR2 HR3 HR4 HS0 Hg]
      · isplitl [HR0 HR1 HR2 HR3 HR4 HS0]
        · isplitl [HR0]; · iexact HR0
          isplitl [HR1]; · iexact HR1
          isplitl [HR2]; · iexact HR2
          isplitl [HR3]; · iexact HR3
          isplitl [HR4]; · iexact HR4
          unfold owns; iexists _; isplitr
          swap; · iexact HS0
          ipureintro; exact View.read_writes_of_cover _ _ _ _ _ (scover1_B c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HR0, HR1, HR2, HR3, HR4, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexists _; iexact HS0
  iexact Hg

end Cert.KernelIdeal.Hand

end
-- ==== Proof.KernelIdeal.Main.lean ====
/-
  @main from the launch to the return: the host's reshape of the node weights, the projection region, the
  aggregation region. The core's buffer contents at each boundary are a fold from the launch memory; the two
  regions enter the launch as segments over the thread state "every unscoped buffer at the boundary's contents,
  the generator register at some state, nothing owed"; the run ends with every unscoped buffer at the last
  boundary's contents, whence the frame (each argument walks back through the fold to the launch memory) and the
  result array named.
-/
import proofs.«153434_j56341380989595_2_alg».proof.Proof.KernelIdeal.Region0
import proofs.«153434_j56341380989595_2_alg».proof.Proof.KernelIdeal.Body1
import proofs.«153434_j56341380989595_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- At launch. -/
abbrev W0 : Dev nD → Valuation τ sig (Elt F) := fun c b => (s₀ m ρ).mem ((c : Dev nD), b)
/-- After the host's reshape of the node weights to a column (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: the reshape writes its own result only, and a region reads an argument
    through an input window or bypasses it -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)

theorem W3_main_arg0 (c : Dev nD) : W3 m ρ c (Proc.devRef .tc main_arg0) = m ((c : Thread nD τ).loc main_arg0) :=
  ((W3_arr m ρ c 3).trans (((dat1 (V2 m ρ) c).arrAt_in 3 rfl _).trans (A_eq1 (V2 m ρ) c 3))).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`; the class invariant enters the
    pipeline's own at the first point and is given back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The same run with the result named: the result array ends at the last boundary's contents of it, the
    arguments as launched. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

end Cert.KernelIdeal.Hand

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayloadsIdeal.lean ====
/-
  The values the kernel stores, read at one index, on the extended reals.

  The kernel has two bodies. The first stores, for a block of 4096 nodes, the projected features: the product of the
  block of X : [4096, 64] with W : [64, 64]. The second works on a block of 1024 nodes and stores three things: a
  zero accumulator; the accumulator plus the product of a [1024, 256] panel of the adjacency with the matching
  [256, 64] panel of the projected features; and the finished result, the rectified accumulator scaled by the node's
  weight plus the node's own features scaled by the complementary weight.

  On the extended reals every operation is exact, so:
    * a change of float format is the identity: an operand rounded on its way into a product is the operand;
    * a cast of an array to its own shape is the identity;
    * a product into an accumulator whose every entry is the word for 0.0 is, at (p, q), the plain sum over the
      contracted position k of left (p, k) · right (k, q) — the dimension numbers contract the left operand's columns
      with the right operand's rows and have no batch axis, which four facts about each record say;
    * a scalar repeated over an array is that scalar at every index, and the word for 0.0 is the number 0;
    * a [1024, 1] column repeated along 64 columns is, at (p, q), the column's entry of row p;
    * sums, differences, products and maxima of arrays are taken entry by entry.

  Each lemma below unfolds one stored value and reads it at explicit coordinates (p, q) with these facts. The words
  for 0.0 and 1.0 in the finished result are kept as words and never evaluated.
-/
import proofs.«153434_j56341380989595_2_alg».proof.Proof.Gen.KernelIdeal.Skeleton
import proofs.«153434_j56341380989595_2_alg».proof.Proof.LibDense
import proofs.«153434_j56341380989595_2_alg».proof.Proof.LibKeepdims
import Idealize.ShloMosaic.PureOps.Ideal.Laws
import Idealize.ShloMosaic.Lib.ValueIdx
import Idealize.ShloMosaic.Lib.Pipeline.Value

noncomputable section

namespace Cert.KernelIdeal.PayloadValue

open Cert.KernelIdeal Cert.KernelIdeal.Gen Idealize.ShloMosaic Idealize.ShloMosaic.ValueIdx

variable [Cert.KernelIdeal.Facts]

/-! ## Where the two products read their operands

  Both products contract the left operand's second axis with the right operand's first and keep the left operand's
  rows and the right operand's columns. For each record, at a result index `i` and a summation position `k`: the left
  operand is read at (row of `i`, `k`) and the right at (`k`, column of `i`). -/

/-- The projection's product: the left operand is read at the result's row. -/
theorem xw_lhs0 (i : S4096x64.Idx) (k : dot_S4096x64_S64x64_S4096x64_1_0_0_1_n_n.contr.Idx) :
    (dot_S4096x64_S64x64_S4096x64_1_0_0_1_n_n.lhsIdx i k 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

/-- The projection's product: the left operand's column is the summation position. -/
theorem xw_lhs1 (i : S4096x64.Idx) (k : dot_S4096x64_S64x64_S4096x64_1_0_0_1_n_n.contr.Idx) :
    (dot_S4096x64_S64x64_S4096x64_1_0_0_1_n_n.lhsIdx i k 1).val = (k ⟨0, by decide⟩).val :=
  dot_S4096x64_S64x64_S4096x64_1_0_0_1_n_n.lhsIdx_val_of_single rfl i k

/-- The projection's product: the right operand's row is the summation position. -/
theorem xw_rhs0 (i : S4096x64.Idx) (k : dot_S4096x64_S64x64_S4096x64_1_0_0_1_n_n.contr.Idx) :
    (dot_S4096x64_S64x64_S4096x64_1_0_0_1_n_n.rhsIdx i k 0).val = (k ⟨0, by decide⟩).val :=
  dot_S4096x64_S64x64_S4096x64_1_0_0_1_n_n.rhsIdx_val_of_single rfl i k

/-- The projection's product: the right operand is read at the result's column. -/
theorem xw_rhs1 (i : S4096x64.Idx) (k : dot_S4096x64_S64x64_S4096x64_1_0_0_1_n_n.contr.Idx) :
    (dot_S4096x64_S64x64_S4096x64_1_0_0_1_n_n.rhsIdx i k 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The aggregation's product: the left operand is read at the result's row. -/
theorem agg_lhs0 (i : S1024x64.Idx) (k : dot_S1024x256_S256x64_S1024x64_1_0_0_1_n_n.contr.Idx) :
    (dot_S1024x256_S256x64_S1024x64_1_0_0_1_n_n.lhsIdx i k 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl

/-- The aggregation's product: the left operand's column is the summation position. -/
theorem agg_lhs1 (i : S1024x64.Idx) (k : dot_S1024x256_S256x64_S1024x64_1_0_0_1_n_n.contr.Idx) :
    (dot_S1024x256_S256x64_S1024x64_1_0_0_1_n_n.lhsIdx i k 1).val = (k ⟨0, by decide⟩).val :=
  dot_S1024x256_S256x64_S1024x64_1_0_0_1_n_n.lhsIdx_val_of_single rfl i k

/-- The aggregation's product: the right operand's row is the summation position. -/
theorem agg_rhs0 (i : S1024x64.Idx) (k : dot_S1024x256_S256x64_S1024x64_1_0_0_1_n_n.contr.Idx) :
    (dot_S1024x256_S256x64_S1024x64_1_0_0_1_n_n.rhsIdx i k 0).val = (k ⟨0, by decide⟩).val :=
  dot_S1024x256_S256x64_S1024x64_1_0_0_1_n_n.rhsIdx_val_of_single rfl i k

/-- The aggregation's product: the right operand is read at the result's column. -/
theorem agg_rhs1 (i : S1024x64.Idx) (k : dot_S1024x256_S256x64_S1024x64_1_0_0_1_n_n.contr.Idx) :
    (dot_S1024x256_S256x64_S1024x64_1_0_0_1_n_n.rhsIdx i k 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-! ## The stored values at an index -/

/-- The first body's stored value at (p, q) is the projected feature ∑ l, X (p, l) · W (l, q): both operands are
    only changed in format on the way in, the product is into the zero accumulator, and the result is only changed
    in format on the way out. -/
theorem k0_pay1_apply (v0 : Vec Ideal S4096x64 .f32) (v2 : Vec Ideal S64x64 .f32) (p : Fin 4096) (q : Fin 64) :
    k0_pay1 (F := Ideal) v0 v2 (ix2 p q) = ∑ l : Fin 64, v0 (ix2 p l) * v2 (ix2 l q) := by
  unfold k0_pay1
  exact matmul_zero_plain_apply dot_S4096x64_S64x64_S4096x64_1_0_0_1_n_n none rfl rfl xw_lhs0 xw_lhs1 xw_rhs0 xw_rhs1
    (truncf (F := Ideal) .bf16 v0 bitsLt_bf16_f32) (truncf (F := Ideal) .bf16 v2 bitsLt_bf16_f32) p q

/-- The accumulator's initial value is 0 at every index: the word for 0.0 repeated over the block, cast to the
    block's own shape; and that word is the number 0. -/
theorem k1_pay1_apply (y : S1024x64.Idx) : k1_pay1 (F := Ideal) y = (0 : EReal) := by
  unfold k1_pay1
  refine (congrFun (shapeCast_self _ _) y).trans ?_
  exact Ideal.ofBits_zero_f32

/-- One accumulation step at (p, q): the accumulator's entry plus ∑ j, A' (p, j) · Y' (j, q), A' the adjacency's
    [1024, 256] panel (only changed in format) and Y' the projected features' [256, 64] panel (only cast to its own
    shape); the sum is then cast to its own shape. -/
theorem k1_pay2_apply (v16 : Vec Ideal S1024x256 .f32) (v19 : Vec Ideal S256x64 .bf16) (v21 : Vec Ideal S1024x64 .f32) (p : Fin 1024) (q : Fin 64) :
    k1_pay2 (F := Ideal) v16 v19 v21 (ix2 p q) = v21 (ix2 p q) + ∑ j : Fin 256, v16 (ix2 p j) * v19 (ix2 j q) := by
  unfold k1_pay2
  refine (congrFun (shapeCast_self _ _) (ix2 p q)).trans ?_
  refine congrArg (v21 (ix2 p q) + ·) ?_
  refine (matmul_zero_plain_apply dot_S1024x256_S256x64_S1024x64_1_0_0_1_n_n none rfl rfl agg_lhs0 agg_lhs1 agg_rhs0 agg_rhs1
    (truncf (F := Ideal) .bf16 v16 bitsLt_bf16_f32) (shapeCast S256x64 v19 shapeCasts_S256x64_S256x64) p q).trans ?_
  refine Finset.sum_congr rfl fun j _ => ?_
  exact congrArg (v16 (ix2 p j) * ·) (congrFun (shapeCast_self v19 shapeCasts_S256x64_S256x64) (ix2 j q))

/-- The finished result at (p, q), from the accumulator a, the weights' column w and the node features x:
    w (p, 0) · max (a (p, q)) zero + (one − w (p, 0)) · x (p, q). The column is cast to its own shape and repeated along
    the 64 features, so under the first product it is w (p, 0); the word for 1.0 repeated down a column, minus the
    column, repeated the same way, is one − w (p, 0) under the second; the maximum is with the word for 0.0 at
    every index. -/
theorem k1_pay3_apply (v7 : Vec Ideal S1024x64 .f32) (v10 : Vec Ideal S1024x1 .f32) (v16 : Vec Ideal S1024x64 .f32) (p : Fin 1024) (q : Fin 64) :
    k1_pay3 (F := Ideal) v7 v10 v16 (ix2 p q)
      = v10 (ix2 p (0 : Fin 1)) * max (v7 (ix2 p q)) (Ideal.ofBits .f32 0x00000000#32)
        + (Ideal.ofBits .f32 0x3F800000#32 - v10 (ix2 p (0 : Fin 1))) * v16 (ix2 p q) := by
  unfold k1_pay3
  have e : shapeCast S1024x1 v10 shapeCasts_S1024x1_S1024x1 = v10 := shapeCast_self _ _
  have b1 := broadcastTo_a1_ab_apply (shapeCast S1024x1 v10 shapeCasts_S1024x1_S1024x1) broadcasts_S1024x1_S1024x64 p q
  have b2 := broadcastTo_a1_ab_apply
    (subf (broadcast S1024x1 (FloatOps.ofBits (F := Ideal) .f32 0x3F800000#32)) (shapeCast S1024x1 v10 shapeCasts_S1024x1_S1024x1))
    broadcasts_S1024x1_S1024x64 p q
  refine (congrArg₂ (· + ·) (congrArg (· * max (v7 (ix2 p q)) (Ideal.ofBits .f32 0x00000000#32)) b1)
    (congrArg (· * v16 (ix2 p q)) b2)).trans ?_
  rw [e]
  rfl

end Cert.KernelIdeal.PayloadValue

end
-- ==== Proof.KernelIdeal.CaseValues.lean ====
/-
  What each case of the aggregation body leaves behind, and the projection body's block, read at one index on the
  extended reals.

  The aggregation body runs at a grid point (r, s): r one of 16 tiles of 1024 nodes, s one of 4 reduction steps. It
  sees the tile A' : [1024, 4096] of the adjacency (the rows of tile r, the columns of step s), the whole of the
  projected features Y : [16384, 64], and an accumulator acc : [1024, 64]. Its loop makes sixteen trips. Trip k reads
  the columns 256 k … 256 k + 255 of A' and the rows 4096 s + 256 k … 4096 s + 256 k + 255 of Y, and stores over the
  WHOLE accumulator

      acc (p, q) + ∑ j < 256, A' (p, 256 k + j) · Y (4096 s + 256 k + j, q).

  Every trip's store covers the accumulator, so what the accumulator reads after k + 1 trips is that expression of
  what it read after k trips, whatever it held before and through whichever view it is read. By induction over the
  trips the accumulator after all sixteen is its entry value plus

      stepSum = ∑ k < 16, ∑ j < 256, A' (p, 256 k + j) · Y (4096 s + 256 k + j, q),

  the terms added in the order of the trips (only associativity of the sum is used, which holds on the extended
  reals). The three cases differ in the entry value and in what else is stored:
    * at the first reduction step the accumulator is first reset — one store of zero over the whole of it — so the
      entry value is 0 and the step leaves stepSum;
    * at a middle step the entry value is what the step before left, acc, and the step leaves acc + stepSum;
    * at the last step the accumulator is left at acc + stepSum as well, and the result block is one store over the
      whole window of  w (p, 0) · max (acc + stepSum) zero + (one − w (p, 0)) · x (p, q),  w the column of node weights
      and x the node features, zero and one the words printed for 0.0 and 1.0.
  The projection body stores once, over the whole of its block, the product of its 4096 rows of X with W.

  Layout of the file: the whole-block rectangle and the two offset chains in closed form; the accumulator after n
  trips as a recursion, for any float values; the chunk loads at an index, one trip's step and the sum over the
  trips, on the extended reals; then the five statements.
-/
import proofs.«153434_j56341380989595_2_alg».proof.Proof.KernelIdeal.Region1
import proofs.«153434_j56341380989595_2_alg».proof.Proof.KernelIdeal.Region0
import proofs.«153434_j56341380989595_2_alg».proof.Proof.PayloadsIdeal
import Idealize.ShloMosaic.PureOps.Ideal.Laws
import Idealize.ShloMosaic.Lib.ValueIdx
import Idealize.ShloMosaic.Lib.Pipeline.Value

set_option maxRecDepth 16384

noncomputable section

namespace Cert.KernelIdeal.CaseValue

open Cert.KernelIdeal Cert.KernelIdeal.Gen Cert.KernelIdeal.Hand Cert.KernelIdeal.PayloadValue Idealize.ShloMosaic Idealize.ShloMosaic.ValueIdx

/-! ## The whole-block rectangle, the projection's block, the offsets -/

/-- The offsets of a whole-block access are zero on both axes. -/
theorem hz2 : (![0, 0] : Fin 2 → Nat) = fun _ => 0 := funext fun a => by fin_cases a <;> rfl

/-- The projection body's block at (p, q) is ∑ l, X (p, l) · W (l, q): one store over the whole block leaves its
    value, a load of a whole block reads the contents, and the value stored is the product. -/
theorem out0_2_apply (x0 : Vec Ideal S4096x64 .f32) (x1 : Vec Ideal S64x64 .f32) (p : Fin 4096) (q : Fin 64) :
    out0_2 (F := Ideal) x0 x1 (ix2 p q) = ∑ l : Fin 64, x0 (ix2 p l) * x1 (ix2 l q) := by
  unfold out0_2
  rw [View.canon_unit_zero hz2]
  simp only [View.ld_unit_zero (S := S4096x64) hz2, View.ld_unit_zero (S := S64x64) hz2]
  exact k0_pay1_apply x0 x1 p q

/-- Trip k reads the adjacency tile from row 0 and column 256 k: the 32-bit chain that computes the column offset
    does not wrap for any of the sixteen trips. -/
theorem k1_off1_eq : ∀ k : Fin k1_t1_loop.trips, k1_off1 k = ![0, 256 * k.val] := by decide +kernel

/-- The row offset's 32-bit chain, 4096 n + 256 k, does not wrap for any reduction step n < 4 and trip k. -/
theorem k1_off2_aux : ∀ (n : Fin 4) (k : Fin k1_t1_loop.trips),
    (Scalar.indexCast (Scalar.addi (Scalar.muli (BitVec.ofNat 32 n.val) 4096#32)
      (Scalar.muli (Scalar.addi 0#32 (Scalar.muli (Scf.iv 0#32 1#32 k) 1#32)) 256#32))).toNat = 4096 * n.val + 256 * k.val := by
  decide +kernel

/-- Trip k at reduction step s reads the projected features from row 4096 s + 256 k and column 0. -/
theorem k1_off2_eq (i : grid1.Coords) (k : Fin k1_t1_loop.trips) : k1_off2 i k = ![4096 * (i 1).val + 256 * k.val, 0] := by
  unfold k1_off2
  dsimp only
  rw [k1_off2_aux (i 1) k]

/-! ## The accumulator after n trips, for any float values

  Each trip's store covers the whole accumulator, so the accumulator's contents after k + 1 trips are the trip's
  stored value, which is a function of the two chunks and of the contents after k trips. -/

section Acc

variable {F : FTy → Type} [FloatOps F] [Cert.KernelIdeal.Facts]
variable (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole)
  (X2 : BufTy.Contents (Elt F) arg2.view.ty) (X3 : BufTy.Contents (Elt F) arg3.view.ty) (G : BufTy.Contents (Elt F) arg7.view.ty)

/-- What the accumulator reads after the first `n` trips, entered at the contents `G`. -/
def accAfter (n : ℕ) : Vec F S1024x64 .f32 :=
  arg7.view.read (Elt F) (arg7.view.writes (Elt F) G (pb_k1_t1 (F := F) 𝒱 c bd i arg2 harg2 arg3 harg3 arg4 harg4 arg5 harg5 arg6 harg6 arg7 harg7 X2 X3 G n))

/-- Before any trip the accumulator reads its entry contents. -/
theorem accAfter_zero : accAfter 𝒱 c bd i arg2 harg2 arg3 harg3 arg4 harg4 arg5 harg5 arg6 harg6 arg7 harg7 X2 X3 G 0 = arg7.view.read (Elt F) G := rfl

/-- One store through the whole-block rectangle covers every index. -/
theorem rS_cover (w : rS.shape.Idx → Elt F .f32) (y : S1024x64.Idx) :
    ∃ pc ∈ ([⟨rS, w⟩] : List (View.Piece (Elt F) S1024x64 .f32)), y ∈ pc.1.set :=
  View.cover_of_tiled [⟨rS, w⟩] S1024x64.size (by rfl) y

/-- After trip k the accumulator reads the trip's stored value: the accumulation step applied to the trip's two
    chunks and to what the accumulator read before the trip. The trip's store is the last write and covers the
    accumulator, so it is what is read; and what the trip loaded from the accumulator, through the whole-block
    rectangle, is what the accumulator read. -/
theorem accAfter_succ (k : Fin k1_t1_loop.trips) :
    accAfter 𝒱 c bd i arg2 harg2 arg3 harg3 arg4 harg4 arg5 harg5 arg6 harg6 arg7 harg7 X2 X3 G (k.val + 1)
      = k1_pay2 (View.readAt (Elt F) arg2.view (Rect.unit (s := S1024x4096) (k1_off1 k) S1024x256.size (k1_off1_inb k)).toLoadRect X2)
          (View.readAt (Elt F) arg3.view (Rect.unit (s := S16384x64) (k1_off2 i k) S256x64.size (k1_off2_inb i k)).toLoadRect X3)
          (accAfter 𝒱 c bd i arg2 harg2 arg3 harg3 arg4 harg4 arg5 harg5 arg6 harg6 arg7 harg7 X2 X3 G k.val) := by
  unfold accAfter
  rw [pb_k1_t1_succ, tripL_eq, View.writes_append]
  generalize arg7.view.writes (Elt F) G (pb_k1_t1 (F := F) 𝒱 c bd i arg2 harg2 arg3 harg3 arg4 harg4 arg5 harg5 arg6 harg6 arg7 harg7 X2 X3 G k.val) = f
  rw [View.read_writes_eq_canon _ _ _ (rS_cover _), View.canon_unit_zero hz2]
  exact congrArg (k1_pay2 _ _) ((View.readAt_eq_ld arg7.view f rS).trans (View.ld_unit_zero (S := S1024x64) hz2 _ _))

end Acc

/-! ## On the extended reals: the chunks at an index, one trip, all sixteen -/

/-- Column 256 k + j of the adjacency tile: column j of trip k's chunk. -/
abbrev colIx (k : Fin 16) (j : Fin 256) : Fin 4096 := ⟨256 * k.val + j.val, by omega⟩
/-- Row 4096 s + 256 k + j of the projected features: row j of trip k's chunk at reduction step s. -/
abbrev rowIx (kb : Fin 4) (k : Fin 16) (j : Fin 256) : Fin 16384 := ⟨4096 * kb.val + 256 * k.val + j.val, by omega⟩

/-- What one reduction step adds to the accumulator at (p, q): the sixteen chunk products, in the order of the trips. -/
def stepSum (i : grid1.Coords) (x0 : Vec Ideal S1024x4096 .f32) (x1 : Vec Ideal S16384x64 .bf16) (p : Fin 1024) (q : Fin 64) : EReal :=
  ∑ k : Fin 16, ∑ j : Fin 256, x0 (ix2 p (colIx k j)) * x1 (ix2 (rowIx (i 1) k j) q)

/-- Trip `k`'s chunk product at (p, q), as a function of a natural number: zero from 16 on, so that the sum over the
    first n trips can be written over `Finset.range n`. -/
def chunkTerm (i : grid1.Coords) (x0 : Vec Ideal S1024x4096 .f32) (x1 : Vec Ideal S16384x64 .bf16) (p : Fin 1024) (q : Fin 64) (k : ℕ) : EReal :=
  if h : k < 16 then ∑ j : Fin 256, x0 (ix2 p (colIx ⟨k, h⟩ j)) * x1 (ix2 (rowIx (i 1) ⟨k, h⟩ j) q) else 0

section AccIdeal

variable [Cert.KernelIdeal.Facts]
variable (𝒱 : Variants) (c : Dev nD) (bd : Option 𝒱.V) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole)

/-- Trip k's chunk of the adjacency tile at (p, j) is the tile at (p, 256 k + j): the load is through a unit-stride
    rectangle at offsets (0, 256 k), and the buffer holds the tile. -/
theorem chunk2_apply (x0 : Vec Ideal S1024x4096 .f32) (k : Fin k1_t1_loop.trips) (hk : k.val < 16) (p : Fin 1024) (j : Fin 256) :
    View.readAt (Elt Ideal) arg2.view (Rect.unit (s := S1024x4096) (k1_off1 k) S1024x256.size (k1_off1_inb k)).toLoadRect (harg2.unread x0) (ix2 p j)
      = x0 (ix2 p (colIx ⟨k.val, hk⟩ j)) := by
  refine (congrFun (harg2.read_unread x0) _).trans (congrArg x0 ?_)
  funext a
  apply Fin.ext
  match a with
  | ⟨0, _⟩ => show (k1_off1 k) 0 + 1 * p.val = p.val; rw [k1_off1_eq]; simp
  | ⟨1, _⟩ => show (k1_off1 k) 1 + 1 * j.val = 256 * k.val + j.val; rw [k1_off1_eq]; simp

/-- Trip k's chunk of the projected features at (j, q) is the array at (4096 s + 256 k + j, q). -/
theorem chunk3_apply (x1 : Vec Ideal S16384x64 .bf16) (k : Fin k1_t1_loop.trips) (hk : k.val < 16) (j : Fin 256) (q : Fin 64) :
    View.readAt (Elt Ideal) arg3.view (Rect.unit (s := S16384x64) (k1_off2 i k) S256x64.size (k1_off2_inb i k)).toLoadRect (harg3.unread x1) (ix2 j q)
      = x1 (ix2 (rowIx (i 1) ⟨k.val, hk⟩ j) q) := by
  refine (congrFun (harg3.read_unread x1) _).trans (congrArg x1 ?_)
  funext a
  apply Fin.ext
  match a with
  | ⟨0, _⟩ => show (k1_off2 i k) 0 + 1 * j.val = 4096 * (i 1).val + 256 * k.val + j.val; rw [k1_off2_eq]; simp
  | ⟨1, _⟩ => show (k1_off2 i k) 1 + 1 * q.val = q.val; rw [k1_off2_eq]; simp

/-- One trip at (p, q): the accumulator after trip k is the accumulator before it plus the trip's chunk product. -/
theorem accAfter_step (x0 : Vec Ideal S1024x4096 .f32) (x1 : Vec Ideal S16384x64 .bf16) (G : BufTy.Contents (Elt Ideal) arg7.view.ty)
    (k : Fin k1_t1_loop.trips) (p : Fin 1024) (q : Fin 64) :
    accAfter (F := Ideal) 𝒱 c bd i arg2 harg2 arg3 harg3 arg4 harg4 arg5 harg5 arg6 harg6 arg7 harg7 (harg2.unread x0) (harg3.unread x1) G (k.val + 1) (ix2 p q)
      = accAfter (F := Ideal) 𝒱 c bd i arg2 harg2 arg3 harg3 arg4 harg4 arg5 harg5 arg6 harg6 arg7 harg7 (harg2.unread x0) (harg3.unread x1) G k.val (ix2 p q)
        + chunkTerm i x0 x1 p q k.val := by
  have hk : k.val < 16 := by have h1 := k.isLt; have h2 := loop_trips; omega
  rw [accAfter_succ]
  refine (k1_pay2_apply _ _ _ p q).trans ?_
  refine congrArg (_ + ·) ?_
  unfold chunkTerm
  rw [dif_pos hk]
  refine Finset.sum_congr rfl fun j _ => ?_
  rw [chunk2_apply (hk := hk), chunk3_apply (hk := hk)]

/-- By induction over the trips: after n ≤ 16 trips the accumulator at (p, q) is its entry value plus the first n
    chunk products (the sum of extended reals is associative). -/
theorem accAfter_sum (x0 : Vec Ideal S1024x4096 .f32) (x1 : Vec Ideal S16384x64 .bf16) (G : BufTy.Contents (Elt Ideal) arg7.view.ty)
    (p : Fin 1024) (q : Fin 64) : ∀ n : ℕ, n ≤ 16 →
    accAfter (F := Ideal) 𝒱 c bd i arg2 harg2 arg3 harg3 arg4 harg4 arg5 harg5 arg6 harg6 arg7 harg7 (harg2.unread x0) (harg3.unread x1) G n (ix2 p q)
      = arg7.view.read (Elt Ideal) G (ix2 p q) + ∑ k ∈ Finset.range n, chunkTerm i x0 x1 p q k
  | 0, _ => by rw [accAfter_zero, Finset.range_zero, Finset.sum_empty, add_zero]
  | n + 1, hn => by
    have hlt : n < k1_t1_loop.trips := by rw [loop_trips]; omega
    have h := accAfter_step 𝒱 c bd i arg2 harg2 arg3 harg3 arg4 harg4 arg5 harg5 arg6 harg6 arg7 harg7 x0 x1 G ⟨n, hlt⟩ p q
    rw [show (⟨n, hlt⟩ : Fin k1_t1_loop.trips).val = n from rfl] at h
    rw [h, accAfter_sum x0 x1 G p q n (by omega), Finset.sum_range_succ, add_assoc]

/-- The sixteen chunk products, summed over the naturals below 16, are the step's sum over the sixteen trips. -/
theorem sum_chunkTerm (x0 : Vec Ideal S1024x4096 .f32) (x1 : Vec Ideal S16384x64 .bf16) (p : Fin 1024) (q : Fin 64) :
    ∑ k ∈ Finset.range 16, chunkTerm i x0 x1 p q k = stepSum i x0 x1 p q := by
  unfold stepSum
  rw [← Fin.sum_univ_eq_sum_range (fun k => chunkTerm i x0 x1 p q k) 16]
  refine Finset.sum_congr rfl fun k _ => ?_
  unfold chunkTerm
  rw [dif_pos k.isLt]

/-- After all sixteen trips the accumulator at (p, q) is its entry value plus the step's sum. -/
theorem accAfter_all (x0 : Vec Ideal S1024x4096 .f32) (x1 : Vec Ideal S16384x64 .bf16) (G : BufTy.Contents (Elt Ideal) arg7.view.ty)
    (p : Fin 1024) (q : Fin 64) :
    accAfter (F := Ideal) 𝒱 c bd i arg2 harg2 arg3 harg3 arg4 harg4 arg5 harg5 arg6 harg6 arg7 harg7 (harg2.unread x0) (harg3.unread x1) G (15 + 1) (ix2 p q)
      = arg7.view.read (Elt Ideal) G (ix2 p q) + stepSum i x0 x1 p q := by
  rw [accAfter_sum 𝒱 c bd i arg2 harg2 arg3 harg3 arg4 harg4 arg5 harg5 arg6 harg6 arg7 harg7 x0 x1 G p q (15 + 1) (by omega), sum_chunkTerm]

end AccIdeal

/-! ## The cases -/

section Cases

variable [Cert.KernelIdeal.Facts]
variable (c : Dev nD) (i : grid1.Coords) (arg2 : Memref sig .tc .vmem S1024x4096 .f32) (harg2 : arg2.IsWhole) (arg3 : Memref sig .tc .vmem S16384x64 .bf16) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole)

/-- The loop makes sixteen trips. -/
theorem trips16' : Scf.trips k1_t1_loop.lb k1_t1_loop.ub k1_t1_loop.st = 15 + 1 := loop_trips

/-- The sixteen trips' stores cover the accumulator (the last trip's alone does). -/
theorem pb_cover16 {F : FTy → Type} [FloatOps F] (X2 : BufTy.Contents (Elt F) arg2.view.ty) (X3 : BufTy.Contents (Elt F) arg3.view.ty)
    (G : BufTy.Contents (Elt F) arg7.view.ty) (y : S1024x64.Idx) :
    ∃ pc ∈ pb_k1_t1 (F := F) Variants.none c none i arg2 harg2 arg3 harg3 arg4 harg4 arg5 harg5 arg6 harg6 arg7 harg7 X2 X3 G (15 + 1), y ∈ pc.1.set :=
  pb_cover Variants.none c none i arg2 harg2 arg3 harg3 arg4 harg4 arg5 harg5 arg6 harg6 arg7 harg7 X2 X3 G 15 (by rw [loop_trips]; omega) y

/-- A load of the whole block through a whole buffer's own view reads the buffer's contents. -/
theorem readAt_whole_unread {F : FTy → Type} {s : Shape} {e : EltTy} (m : Memref sig .tc .vmem s e) (h : m.IsWhole) (X : s.Idx → Elt F e)
    {off : Fin s.rank → Nat} (hz : off = fun _ => 0) (inb : ∀ a, off a + s.size a ≤ s.size a) :
    View.readAt (Elt F) m.view (Rect.unit off s.size inb).toLoadRect (h.unread X) = X := by
  rw [View.readAt_eq_ld, h.read_unread, View.ld_unit_zero hz]

/-- A middle reduction step leaves, at (p, q), what the step before left plus the step's sum: the stores are the
    sixteen trips', they cover the accumulator, so what they leave does not depend on the view it is read through
    nor on what was there; entered at the contents that read `xs0`, the accumulator ends at `xs0` plus the sum. -/
theorem sout1_B_apply (hc0 : ¬cond1_0 i) (hc1 : ¬cond1_1 i)
    (x0 : Vec Ideal S1024x4096 .f32) (x1 : Vec Ideal S16384x64 .bf16) (xs0 : Vec Ideal S1024x64 .f32) (p : Fin 1024) (q : Fin 64) :
    sout1_B (F := Ideal) c i arg2 harg2 arg3 harg3 arg4 harg4 arg5 harg5 arg6 harg6 arg7 harg7 hc0 hc1 x0 x1 xs0 (ix2 p q) = xs0 (ix2 p q) + stepSum i x0 x1 p q := by
  have hL : (kernelRun1_B (F := Ideal) c i arg2 harg2 arg3 harg3 arg4 harg4 arg5 harg5 arg6 harg6 arg7 harg7 hc0 hc1 x0 x1 xs0).1
      = pb_k1_t1 (F := Ideal) Variants.none c none i arg2 harg2 arg3 harg3 arg4 harg4 arg5 harg5 arg6 harg6 arg7 harg7 (harg2.unread x0) (harg3.unread x1) (harg7.unread xs0) (15 + 1) := by
    unfold kernelRun1_B; dsimp only; rw [trips16]
  unfold sout1_B
  rw [hL, View.read_writes_of_cover VS1 VS1.junk arg7.view (harg7.unread xs0) _ (pb_cover16 c i arg2 harg2 arg3 harg3 arg4 harg4 arg5 harg5 arg6 harg6 arg7 harg7 _ _ _)]
  refine (accAfter_all Variants.none c none i arg2 harg2 arg3 harg3 arg4 harg4 arg5 harg5 arg6 harg6 arg7 harg7 x0 x1 (harg7.unread xs0) p q).trans ?_
  rw [harg7.read_unread]

/-- The last reduction step leaves the accumulator, at (p, q), at what the step before left plus the step's sum:
    its stores into the accumulator are the sixteen trips', as at a middle step. -/
theorem sout1_C_apply (hc0 : ¬cond1_0 i) (hc1 : cond1_1 i)
    (x0 : Vec Ideal S1024x4096 .f32) (x1 : Vec Ideal S16384x64 .bf16) (x2 : Vec Ideal S1024x1 .f32) (x3 : Vec Ideal S1024x64 .f32) (xs0 : Vec Ideal S1024x64 .f32) (p : Fin 1024) (q : Fin 64) :
    sout1_C (F := Ideal) c i arg2 harg2 arg3 harg3 arg4 harg4 arg5 harg5 arg6 harg6 arg7 harg7 hc0 hc1 x0 x1 x2 x3 xs0 (ix2 p q) = xs0 (ix2 p q) + stepSum i x0 x1 p q := by
  have hL : (kernelRun1_C (F := Ideal) c i arg2 harg2 arg3 harg3 arg4 harg4 arg5 harg5 arg6 harg6 arg7 harg7 hc0 hc1 x0 x1 x2 x3 xs0).2.1
      = pb_k1_t1 (F := Ideal) Variants.none c none i arg2 harg2 arg3 harg3 arg4 harg4 arg5 harg5 arg6 harg6 arg7 harg7 (harg2.unread x0) (harg3.unread x1) (harg7.unread xs0) (15 + 1) := by
    unfold kernelRun1_C; dsimp only; rw [trips16]
  unfold sout1_C
  rw [hL, View.read_writes_of_cover VS1 VS1.junk arg7.view (harg7.unread xs0) _ (pb_cover16 c i arg2 harg2 arg3 harg3 arg4 harg4 arg5 harg5 arg6 harg6 arg7 harg7 _ _ _)]
  refine (accAfter_all Variants.none c none i arg2 harg2 arg3 harg3 arg4 harg4 arg5 harg5 arg6 harg6 arg7 harg7 x0 x1 (harg7.unread xs0) p q).trans ?_
  rw [harg7.read_unread]

/-- The first reduction step leaves, at (p, q), the step's sum: its stores are the reset — zero over the whole
    accumulator — and then the sixteen trips', entered at what the reset left; that reads 0 at every index, and
    0 plus the sum is the sum. -/
theorem sout1_A_apply (hc0 : cond1_0 i) (hc1 : ¬cond1_1 i)
    (x0 : Vec Ideal S1024x4096 .f32) (x1 : Vec Ideal S16384x64 .bf16) (p : Fin 1024) (q : Fin 64) :
    sout1_A (F := Ideal) c i arg2 harg2 arg3 harg3 arg4 harg4 arg5 harg5 arg6 harg6 arg7 harg7 hc0 hc1 x0 x1 (ix2 p q) = stepSum i x0 x1 p q := by
  have hL : (kernelRun1_A (F := Ideal) c i arg2 harg2 arg3 harg3 arg4 harg4 arg5 harg5 arg6 harg6 arg7 harg7 hc0 hc1 x0 x1).1
      = pb_k1_t1 (F := Ideal) Variants.none c none i arg2 harg2 arg3 harg3 arg4 harg4 arg5 harg5 arg6 harg6 arg7 harg7 (harg2.unread x0) (harg3.unread x1)
          (arg7.view.writes (Elt Ideal) arg7.view.junk [⟨rS, k1_pay1 (F := Ideal)⟩]) (15 + 1) ++ [⟨rS, k1_pay1 (F := Ideal)⟩] := by
    unfold kernelRun1_A; dsimp only; rw [trips16]; unfold kernelRun1_A.sl.HS0_1; rfl
  unfold sout1_A
  rw [hL, View.writes_append, View.read_writes_of_cover VS1 _ arg7.view
    (arg7.view.writes (Elt Ideal) arg7.view.junk [⟨rS, k1_pay1 (F := Ideal)⟩]) _ (pb_cover16 c i arg2 harg2 arg3 harg3 arg4 harg4 arg5 harg5 arg6 harg6 arg7 harg7 _ _ _)]
  refine (accAfter_all Variants.none c none i arg2 harg2 arg3 harg3 arg4 harg4 arg5 harg5 arg6 harg6 arg7 harg7 x0 x1 _ p q).trans ?_
  rw [View.read_writes_eq_canon _ _ _ (rS_cover _), View.canon_unit_zero hz2, k1_pay1_apply, zero_add]

/-- The result block at the last reduction step, at (p, q): one store over the whole window of the finished result,
    computed from the accumulator as loaded after the loop — what the step before left plus the step's sum —, the
    column of node weights and the node features, each loaded whole:
    w (p, 0) · max (acc (p, q) + stepSum) zero + (one − w (p, 0)) · x (p, q). -/
theorem out1_C_4_apply (hc0 : ¬cond1_0 i) (hc1 : cond1_1 i)
    (x0 : Vec Ideal S1024x4096 .f32) (x1 : Vec Ideal S16384x64 .bf16) (x2 : Vec Ideal S1024x1 .f32) (x3 : Vec Ideal S1024x64 .f32) (xs0 : Vec Ideal S1024x64 .f32) (p : Fin 1024) (q : Fin 64) :
    out1_C_4 (F := Ideal) c i arg2 harg2 arg3 harg3 arg4 harg4 arg5 harg5 arg6 harg6 arg7 harg7 hc0 hc1 x0 x1 x2 x3 xs0 (ix2 p q)
      = x2 (ix2 p (0 : Fin 1)) * max (xs0 (ix2 p q) + stepSum i x0 x1 p q) (Ideal.ofBits .f32 0x00000000#32)
        + (Ideal.ofBits .f32 0x3F800000#32 - x2 (ix2 p (0 : Fin 1))) * x3 (ix2 p q) := by
  have hL : (kernelRun1_C (F := Ideal) c i arg2 harg2 arg3 harg3 arg4 harg4 arg5 harg5 arg6 harg6 arg7 harg7 hc0 hc1 x0 x1 x2 x3 xs0).1
      = [⟨rS, k1_pay3 (F := Ideal)
          (View.readAt (Elt Ideal) arg7.view rS.toLoadRect (arg7.view.writes (Elt Ideal) (harg7.unread xs0)
            (pb_k1_t1 (F := Ideal) Variants.none c none i arg2 harg2 arg3 harg3 arg4 harg4 arg5 harg5 arg6 harg6 arg7 harg7 (harg2.unread x0) (harg3.unread x1) (harg7.unread xs0) (15 + 1))))
          (View.readAt (Elt Ideal) arg4.view (Rect.unit (s := S1024x1) ![0, 0] S1024x1.size inb_S1024x1_S1024x1_0_0).toLoadRect (harg4.unread x2))
          (View.readAt (Elt Ideal) arg5.view rS.toLoadRect (harg5.unread x3))⟩] := by
    unfold kernelRun1_C; dsimp only; unfold kernelRun1_C.sl.v7; rw [trips16']
  unfold out1_C_4
  rw [hL, View.read_writes_eq_canon _ _ _ (rS_cover _), View.canon_unit_zero hz2]
  refine (k1_pay3_apply _ _ _ p q).trans ?_
  rw [readAt_whole_unread arg4 harg4 x2 hz2, readAt_whole_unread arg5 harg5 x3 hz2]
  have hv : View.readAt (Elt Ideal) arg7.view rS.toLoadRect (arg7.view.writes (Elt Ideal) (harg7.unread xs0)
        (pb_k1_t1 (F := Ideal) Variants.none c none i arg2 harg2 arg3 harg3 arg4 harg4 arg5 harg5 arg6 harg6 arg7 harg7 (harg2.unread x0) (harg3.unread x1) (harg7.unread xs0) (15 + 1))) (ix2 p q)
      = xs0 (ix2 p q) + stepSum i x0 x1 p q := by
    rw [View.readAt_eq_ld, View.ld_unit_zero (S := S1024x64) hz2]
    refine (accAfter_all Variants.none c none i arg2 harg2 arg3 harg3 arg4 harg4 arg5 harg5 arg6 harg6 arg7 harg7 x0 x1 (harg7.unread xs0) p q).trans ?_
    rw [harg7.read_unread]
  rw [hv]

end Cases

end Cert.KernelIdeal.CaseValue

end
-- ==== Proof.Spec.lean ====
/-
  The function both programs compute, index by index, on the extended reals.

  With X : [16384, 64] the node features, A : [16384, 16384] the normalized adjacency, w : [16384] the per-node
  residual weights and W : [64, 64] the aggregation weight, the result at node i and feature j is

      w i · max (∑ k, A i k · (∑ l, X k l · W l j)) 0  +  (1 − w i) · X i j,

  the inner sum the projected feature (X W) k j, the outer the aggregation A (X W), the maximum with zero the
  rectifier, and the two products the residual combination. The constants zero and one are kept as the words
  the programs print for them.
-/
import Idealize.ShloMosaic.PureOps.Ideal
import Idealize.ShloMosaic.Lib.ValueIdx

noncomputable section

namespace Cert.Spec

open Idealize.ShloMosaic Idealize.ShloMosaic.ValueIdx

abbrev SX : Shape := ⟨2, ![16384, 64]⟩
abbrev SA : Shape := ⟨2, ![16384, 16384]⟩
abbrev Sw : Shape := ⟨1, ![16384]⟩
abbrev SW : Shape := ⟨2, ![64, 64]⟩

/-- The words the programs print for 0.0 and 1.0, read at the extended reals. -/
abbrev zero : EReal := Ideal.ofBits .f32 0x00000000#32
abbrev one : EReal := Ideal.ofBits .f32 0x3F800000#32

/-- The projected feature (X W) k j = ∑ l, X k l · W l j. -/
def proj (X : SX.Idx → EReal) (W : SW.Idx → EReal) (k : Fin 16384) (j : Fin 64) : EReal :=
  ∑ l : Fin 64, X (ix2 k l) * W (ix2 l j)

/-- The aggregation (A (X W)) i j = ∑ k, A i k · (X W) k j. -/
def agg (X : SX.Idx → EReal) (A : SA.Idx → EReal) (W : SW.Idx → EReal) (i : Fin 16384) (j : Fin 64) : EReal :=
  ∑ k : Fin 16384, A (ix2 i k) * proj X W k j

/-- The result: the rectified aggregation scaled by the node's weight, plus the node's own features scaled by
    the complementary weight. -/
def G (X : SX.Idx → EReal) (A : SA.Idx → EReal) (w : Sw.Idx → EReal) (W : SW.Idx → EReal) : SX.Idx → EReal :=
  fun y => w (ix1 (y 0)) * max (agg X A W (y 0) (y 1)) zero + (one - w (ix1 (y 0))) * X (ix2 (y 0) (y 1))

theorem G_apply (X : SX.Idx → EReal) (A : SA.Idx → EReal) (w : Sw.Idx → EReal) (W : SW.Idx → EReal) (i : Fin 16384) (j : Fin 64) :
    G X A w W (ix2 i j) = w (ix1 i) * max (agg X A W i j) zero + (one - w (ix1 i)) * X (ix2 i j) := rfl

end Cert.Spec

end
-- ==== Proof.KernelIdeal.Value0.lean ====
/-
  What the projection region leaves: the array of projected features. Grid point t of the first region writes
  back the block of rows 4096·t … 4096·t + 4095, each entry (r, j) the sum over l of X (r, l) · W (l, j) — the
  block of X it loaded has those rows, the whole of W is in every point's window — and the four blocks tile
  the array, so the array ends holding (X W) everywhere.
-/
import proofs.«153434_j56341380989595_2_alg».proof.Proof.KernelIdeal.Main
import proofs.«153434_j56341380989595_2_alg».proof.Proof.KernelIdeal.CaseValues
import proofs.«153434_j56341380989595_2_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

open Cert.KernelIdeal.CaseValue

variable (m : (ℓ : Loc nD τ sig) → Buf (Elt Ideal) ℓ) (ρ : Dev nD → PrngReg)

/-- The projected features as an array: (X W) (r, j). -/
def XWarr (X : S16384x64.Idx → EReal) (Wt : S64x64.Idx → EReal) : S16384x64.Idx → EReal :=
  fun y => Cert.Spec.proj X Wt (y 0) (y 1)

/-- The printed index maps of the first region, decided over its four points: the X window and the result window
    move together down the rows, the W window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 (V1 m ρ) c).flushed 2 t = ((cfg0.win 2).blk t).view.read (Elt Ideal) (XWarr (m ((c : Thread nD τ).loc main_arg0)) (m ((c : Thread nD τ).loc main_arg3))) := by
  show (cfg0.win 2).cut (grid0.coords t) ((dat0 (V1 m ρ) c).after 2 t) = _
  rw [after0_2]
  obtain ⟨e0, e1, e2, e3, e4, e5⟩ := idx_facts0 t
  funext j
  obtain ⟨p, q, rfl⟩ : ∃ (p : Fin 4096) (q : Fin 64), j = ix2 p q := ⟨j 0, j 1, eq_ix2 j⟩
  show out0_2 (iblk0 (V1 m ρ) c 0 t) (iblk0 (V1 m ρ) c 1 t) (ix2 p q) = XWarr _ _ (((cfg0.win 2).blk t).view.emb (ix2 p q))
  rw [out0_2_apply]
  unfold XWarr Cert.Spec.proj
  refine Finset.sum_congr rfl fun l _ => ?_
  have h0 : ((cfg0.win 0).blk t).view.emb (ix2 p l) = ix2 ((((cfg0.win 2).blk t).view.emb (ix2 p q)) 0) l := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 64 + 1 * l.val = l.val; omega
  have h1 : ((cfg0.win 1).blk t).view.emb (ix2 l q) = ix2 l ((((cfg0.win 2).blk t).view.emb (ix2 p q)) 1) := by
    funext a; apply Fin.ext
    match a with
    | ⟨0, _⟩ => show win0_1.index t (0 : Fin 2) * 64 + 1 * l.val = l.val; omega
    | ⟨1, _⟩ => show win0_1.index t (1 : Fin 2) * 64 + 1 * q.val = win0_2.index t (1 : Fin 2) * 64 + 1 * q.val; omega
  have hA : iblk0 (V1 m ρ) c 0 t (ix2 p l) = m ((c : Thread nD τ).loc main_arg0) (ix2 ((((cfg0.win 2).blk t).view.emb (ix2 p q)) 0) l) := by
    show V1 m ρ c main_arg0 (((cfg0.win 0).blk t).view.emb (ix2 p l)) = _
    rw [show V1 m ρ c main_arg0 = m ((c : Thread nD τ).loc main_arg0) from W1_main_arg0 m ρ c, h0]
    rfl
  have hB : iblk0 (V1 m ρ) c 1 t (ix2 l q) = m ((c : Thread nD τ).loc main_arg3) (ix2 l ((((cfg0.win 2).blk t).view.emb (ix2 p q)) 1)) := by
    show V1 m ρ c main_arg3 (((cfg0.win 1).blk t).view.emb (ix2 l q)) = _
    rw [show V1 m ρ c main_arg3 = m ((c : Thread nD τ).loc main_arg3) from W1_main_arg3 m ρ c, h1]
    rfl
  rw [hA, hB]

theorem mem_blk0 (t : Fin cfg0.N) (i : S16384x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v1).slice (win0_2.rect t)).set ↔ _
  rw [View.set_slice_whole, Rect.mem_set_unit]
  exact Iff.rfl

theorem cover0 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  let t : Fin cfg0.N := ⟨(i 0).val / 4096, by rw [show cfg0.N = 4 from N_0]; omega⟩
  obtain ⟨e0, e1, e2, e3, e4, e5⟩ := idx_facts0 t
  have ht : t.val = (i 0).val / 4096 := rfl
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 64 ≤ (i 1).val ∧ (i 1).val < win0_2.index t (1 : Fin 2) * 64 + 64; omega

/-- THE PROJECTED FEATURES: after the first region its result array holds (X W). -/
theorem final0 (c : Dev nD) : (dat0 (V1 m ρ) c).arrAt 2 cfg0.N = XWarr (m ((c : Thread nD τ).loc main_arg0)) (m ((c : Thread nD τ).loc main_arg3)) :=
  (dat0 (V1 m ρ) c).arrAt_eq_of_cover 2 _ (fun t _ => flushed0_eq m ρ c t) cover0

end Cert.KernelIdeal.KValue

end
-- ==== Proof.LibTiles.lean ====
/-
  Sums taken tile by tile: general facts about finite sums in a commutative monoid, independent of any program.

  A quantity indexed by the points `0, 1, 2, …` of a grid that is RESET to `Z + M n` at every point `n` divisible by
  `J` and STEPS by `+ M n` at every other point is, at the point `J·q + j` with `j < J`, the reset value plus the terms of
  the run `J·q, …, J·q + j`. And a sum over `A` runs of `J` tiles of `B` rows each, every tile summed over its rows, is the
  sum over all `A·J·B` rows: row `r` of tile `t` is row `B·t + r`, tile `s` of run `q` is tile `J·q + s`.
-/
import Mathlib.Algebra.BigOperators.Fin
import Mathlib.Algebra.BigOperators.Intervals
import Mathlib.Logic.Equiv.Fin.Basic

open scoped BigOperators

namespace Cert.LibTiles

variable {β : Type*} [AddCommMonoid β]

/-- THE RUNNING SUM IN CLOSED FORM: reset at the multiples of `J` (`h0`), stepped elsewhere (`hs`). -/
theorem acc_closed {N : ℕ} (f : (n : ℕ) → n < N → β) (J : ℕ) (Z : β) (M : ℕ → β)
    (h0 : ∀ (n : ℕ) (h : n < N), n % J = 0 → f n h = Z + M n)
    (hs : ∀ (n : ℕ) (h : n + 1 < N), ¬(n + 1) % J = 0 → f (n + 1) h = f n (Nat.lt_of_succ_lt h) + M (n + 1))
    (q : ℕ) : ∀ (j : ℕ) (_ : j < J) (h : J * q + j < N),
      f (J * q + j) h = Z + ∑ s ∈ Finset.range (j + 1), M (J * q + s)
  | 0, _, h => by
    rw [Finset.sum_range_one]
    exact h0 _ h (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← add_assoc Z,
      ← acc_closed f J Z M h0 hs q j (Nat.lt_of_succ_lt hj) (Nat.lt_of_succ_lt h)]
    exact hs (J * q + j) h hne

/-- A sum over `A` tiles of `B` rows, tile by tile, is the sum over the `A·B` rows: row `r` of tile `k` is row `B·k + r`. -/
theorem sum_tiles (A B : ℕ) (φ : ℕ → β) :
    ∑ k : Fin A, ∑ r : Fin B, φ (B * k.val + r.val) = ∑ h : Fin (A * B), φ h.val := by
  rw [← Fintype.sum_prod_type' (fun (k : Fin A) (r : Fin B) => φ (B * k.val + r.val))]
  refine Fintype.sum_equiv finProdFinEquiv _ _ fun p => congrArg φ ?_
  show B * p.1.val + p.2.val = p.2.val + B * p.1.val
  exact Nat.add_comm _ _

/-- THE REGROUPED SUM: `A` runs of `J` tiles of `B` rows, summed rows first, then tiles of a run, then runs, is the sum
    over all the `N = A·J·B` rows. -/
theorem sum_runs_tiles_rows {A J B N : ℕ} (hN : A * J * B = N) (φ : ℕ → β) :
    ∑ q : Fin A, ∑ s ∈ Finset.range J, ∑ r : Fin B, φ (B * (J * q.val + s) + r.val) = ∑ h : Fin N, φ h.val := by
  subst hN
  rw [← sum_tiles (A * J) B φ, ← sum_tiles A J (fun t => ∑ r : Fin B, φ (B * t + r.val))]
  refine Finset.sum_congr rfl fun q _ => ?_
  rw [Finset.sum_range]

end Cert.LibTiles
-- ==== Proof.KernelIdeal.Value1.lean ====
/-
  What the aggregation region leaves: the result. The region finds the projected features (X W) in the first
  region's result array, the node weights as a column, and X and A as launched. Over the four reduction steps of
  a row tile the accumulator restarts from zero and adds, per step, sixteen chunk products of 256 columns each;
  at the last step it therefore holds, at (p, j), the sum over all 16384 columns h of A (row, h) · (X W) (h, j),
  the aggregation. The block written back there is the rectified aggregation scaled by the node weight plus the
  node's own features scaled by the complementary weight; the sixteen row tiles' blocks tile the result array.
-/
import proofs.«153434_j56341380989595_2_alg».proof.Proof.KernelIdeal.Value0
import proofs.«153434_j56341380989595_2_alg».proof.Proof.KernelIdeal.CaseValues
import proofs.«153434_j56341380989595_2_alg».proof.Proof.LibTiles
import proofs.«153434_j56341380989595_2_alg».proof.Proof.LibKeepdims
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Cert.KernelIdeal.CaseValue

/-! ## What the region finds -/

theorem V2_main_v1 (c : Dev nD) : V2 m ρ c main_v1 = XWarr (m ((c : Thread nD τ).loc main_arg0)) (m ((c : Thread nD τ).loc main_arg3)) :=
  (W2_arr m ρ c 2).trans (final0 m ρ c)

/-- The host's reshape of the node weights: the column's entry of row r is the weight of node r. -/
theorem W1_main_v0 (c : Dev nD) : (W1 m ρ c (Proc.devRef .tc main_v0) : S16384x1.Idx → EReal)
    = shapeCast S16384x1 (m ((c : Thread nD τ).loc main_arg2)) shapeCasts_S16384_S16384x1 := by
  dsimp only [W1, hostOps0]; after_results; rfl

theorem V2_main_v0_apply (c : Dev nD) (r : Fin 16384) (u : Fin 1) :
    V2 m ρ c main_v0 (ix2 r u) = m ((c : Thread nD τ).loc main_arg2) (ix1 r) := by
  have h : V2 m ρ c main_v0 = W1 m ρ c (Proc.devRef .tc main_v0) := W2_of_ne m ρ c main_v0 (by decide)
  rw [h, W1_main_v0]
  exact shapeCast_a_a1_apply _ _ r u

/-! ## The index maps of the second region, over its 64 points -/

theorem idx_facts1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0
    ∧ ((grid1.coords t) 1).val = t.val % 4 :=
  (by decide +kernel : ∀ t : Fin grid1.N, _)

section Entry

variable (c : Dev nD) (p : Fin 1024) (q : Fin 64)

/-- One step's contribution to the accumulator at (p, q), at grid position n. -/
def stepAt (n : ℕ) : EReal :=
  if h : n < cfg1.N then stepSum (grid1.coords ⟨n, h⟩) (iblk1 (V2 m ρ) c 0 ⟨n, h⟩) (iblk1 (V2 m ρ) c 1 ⟨n, h⟩) p q else 0

/-- The accumulator's entry (p, q) after grid position n. -/
def accAtPt (n : ℕ) (h : n < cfg1.N) : EReal := (outsAt1 (V2 m ρ) c n h).2 (ix2 p q)

theorem acc_reset (n : ℕ) (h : n < cfg1.N) (h0 : n % 4 = 0) : accAtPt m ρ c p q n h = 0 + stepAt m ρ c p q n := by
  have h1 : ¬n % 4 = 3 := by omega
  have e := congrFun (outsAt1_A (V2 m ρ) c ⟨n, h⟩ h0 h1) (ix2 p q)
  unfold accAtPt stepAt
  rw [dif_pos h, zero_add]
  exact e.trans (sout1_A_apply _ _ _ _ _ _ _ _ _ _ _ _ _ _ _ _ _ _ _ _)

theorem acc_step (n : ℕ) (h : n + 1 < cfg1.N) (h0 : ¬(n + 1) % 4 = 0) :
    accAtPt m ρ c p q (n + 1) h = accAtPt m ρ c p q n (Nat.lt_of_succ_lt h) + stepAt m ρ c p q (n + 1) := by
  unfold accAtPt stepAt
  rw [dif_pos h]
  by_cases h1 : (n + 1) % 4 = 3
  · have e := congrFun (congrArg Prod.snd (outsAt1_C (V2 m ρ) c ⟨n + 1, h⟩ h0 h1)) (ix2 p q)
    exact e.trans (sout1_C_apply _ _ _ _ _ _ _ _ _ _ _ _ _ _ _ _ _ _ _ _ _ _ _)
  · have e := congrFun (outsAt1_B (V2 m ρ) c ⟨n + 1, h⟩ h0 h1) (ix2 p q)
    exact e.trans (sout1_B_apply _ _ _ _ _ _ _ _ _ _ _ _ _ _ _ _ _ _ _ _ _)

/-- At the last reduction step of row tile b the accumulator holds the four steps' contributions. -/
theorem acc_last (b : ℕ) (h : 4 * b + 3 < cfg1.N) :
    accAtPt m ρ c p q (4 * b + 3) h = 0 + ∑ s ∈ Finset.range 4, stepAt m ρ c p q (4 * b + s) :=
  Cert.LibTiles.acc_closed (accAtPt m ρ c p q) 4 0 (stepAt m ρ c p q) (acc_reset m ρ c p q) (acc_step m ρ c p q) b 3 (by omega) h

/-- The term of the aggregation's sum at column h of the adjacency row `r`. -/
def aggTermF (A : S16384x16384.Idx → EReal) (P : S16384x64.Idx → EReal) (q : Fin 64) (r : Fin 16384) (h : ℕ) : EReal :=
  if hh : h < 16384 then A (ix2 r ⟨h, hh⟩) * P (ix2 ⟨h, hh⟩ q) else 0
def aggTerm (r : Fin 16384) (h : ℕ) : EReal :=
  aggTermF (m ((c : Thread nD τ).loc main_arg1)) (XWarr (m ((c : Thread nD τ).loc main_arg0)) (m ((c : Thread nD τ).loc main_arg3))) q r h

/-- One step's contribution read off the arrays: step s of row tile b adds the columns 4096·s … 4096·s + 4095. -/
theorem stepAt_eq (b s : ℕ) (hb : b < 16) (hs : s < 4) :
    stepAt m ρ c p q (4 * b + s)
      = ∑ k : Fin 16, ∑ j : Fin 256, aggTerm m c q ⟨1024 * b + p.val, by omega⟩ (256 * (16 * s + k.val) + j.val) := by
  have hN : cfg1.N = 64 := N_1
  have hn : 4 * b + s < cfg1.N := by omega
  unfold stepAt
  rw [dif_pos hn]
  unfold stepSum
  obtain ⟨e00, e01, e10, e11, e20, e21, e30, e31, e40, e41, eg⟩ := idx_facts1 ⟨4 * b + s, hn⟩
  have hv : (⟨4 * b + s, hn⟩ : Fin cfg1.N).val = 4 * b + s := rfl
  refine Finset.sum_congr rfl fun k _ => Finset.sum_congr rfl fun j _ => ?_
  have hk : k.val < 16 := k.isLt
  have hj : j.val < 256 := j.isLt
  unfold aggTerm aggTermF
  rw [dif_pos (by omega : 256 * (16 * s + k.val) + j.val < 16384)]
  have hA : iblk1 (V2 m ρ) c 0 ⟨4 * b + s, hn⟩ (ix2 p (colIx k j))
      = m ((c : Thread nD τ).loc main_arg1) (ix2 (⟨1024 * b + p.val, by omega⟩ : Fin 16384) (⟨256 * (16 * s + k.val) + j.val, by omega⟩ : Fin 16384)) := by
    show V2 m ρ c main_arg1 (((cfg1.win 0).blk ⟨4 * b + s, hn⟩).view.emb (ix2 p (colIx k j))) = _
    rw [show V2 m ρ c main_arg1 = m ((c : Thread nD τ).loc main_arg1) from W2_main_arg1 m ρ c]
    exact congrArg _ (show ((cfg1.win 0).blk ⟨4 * b + s, hn⟩).view.emb (ix2 p (colIx k j)) = ix2 (⟨1024 * b + p.val, by omega⟩ : Fin 16384) (⟨256 * (16 * s + k.val) + j.val, by omega⟩ : Fin 16384) from by
      funext a; apply Fin.ext
      match a with
      | ⟨0, _⟩ => show win1_0.index ⟨4 * b + s, hn⟩ (0 : Fin 2) * 1024 + 1 * p.val = 1024 * b + p.val; omega
      | ⟨1, _⟩ => show win1_0.index ⟨4 * b + s, hn⟩ (1 : Fin 2) * 4096 + 1 * (256 * k.val + j.val) = 256 * (16 * s + k.val) + j.val; omega)
  have hB : iblk1 (V2 m ρ) c 1 ⟨4 * b + s, hn⟩ (ix2 (rowIx ((grid1.coords ⟨4 * b + s, hn⟩) 1) k j) q)
      = XWarr (m ((c : Thread nD τ).loc main_arg0)) (m ((c : Thread nD τ).loc main_arg3)) (ix2 (⟨256 * (16 * s + k.val) + j.val, by omega⟩ : Fin 16384) q) := by
    show V2 m ρ c main_v1 (((cfg1.win 1).blk ⟨4 * b + s, hn⟩).view.emb (ix2 (rowIx ((grid1.coords ⟨4 * b + s, hn⟩) 1) k j) q)) = _
    rw [V2_main_v1]
    exact congrArg _ (show ((cfg1.win 1).blk ⟨4 * b + s, hn⟩).view.emb (ix2 (rowIx ((grid1.coords ⟨4 * b + s, hn⟩) 1) k j) q) = ix2 (⟨256 * (16 * s + k.val) + j.val, by omega⟩ : Fin 16384) q from by
      funext a; apply Fin.ext
      match a with
      | ⟨0, _⟩ => show win1_1.index ⟨4 * b + s, hn⟩ (0 : Fin 2) * 16384 + 1 * (4096 * ((grid1.coords ⟨4 * b + s, hn⟩) 1).val + 256 * k.val + j.val) = 256 * (16 * s + k.val) + j.val; omega
      | ⟨1, _⟩ => show win1_1.index ⟨4 * b + s, hn⟩ (1 : Fin 2) * 64 + 1 * q.val = q.val; omega)
  rw [hA, hB]

/-- THE AGGREGATION: at the last reduction step of row tile b the accumulator's entry (p, q) is the sum over all
    16384 columns. -/
theorem acc_last_eq (b : ℕ) (hb : b < 16) (h : 4 * b + 3 < cfg1.N) :
    accAtPt m ρ c p q (4 * b + 3) h = Cert.Spec.agg (m ((c : Thread nD τ).loc main_arg0)) (m ((c : Thread nD τ).loc main_arg1)) (m ((c : Thread nD τ).loc main_arg3)) ⟨1024 * b + p.val, by omega⟩ q := by
  rw [acc_last, zero_add]
  rw [Finset.sum_congr rfl fun s hs => stepAt_eq m ρ c p q b s hb (Finset.mem_range.mp hs)]
  rw [Finset.sum_range (fun s => ∑ k : Fin 16, ∑ j : Fin 256, aggTerm m c q ⟨1024 * b + p.val, by omega⟩ (256 * (16 * s + k.val) + j.val))]
  rw [Finset.sum_congr rfl fun (s : Fin 4) _ => (Finset.sum_range (fun k => ∑ j : Fin 256, aggTerm m c q ⟨1024 * b + p.val, by omega⟩ (256 * (16 * s.val + k) + j.val))).symm]
  rw [Cert.LibTiles.sum_runs_tiles_rows (A := 4) (J := 16) (B := 256) (N := 16384) rfl]
  unfold Cert.Spec.agg
  refine Finset.sum_congr rfl fun h _ => ?_
  unfold aggTerm aggTermF
  rw [dif_pos h.isLt]
  rfl

end Entry

/-! ## From blocks to the array -/

theorem flushed1_eq (c : Dev nD) (t : Fin cfg1.N) (hf : (cfg1.win 4).flush t = true) :
    (dat1 (V2 m ρ) c).flushed 4 t = ((cfg1.win 4).blk t).view.read (Elt Ideal)
      (Cert.Spec.G (m ((c : Thread nD τ).loc main_arg0)) (m ((c : Thread nD τ).loc main_arg1)) (m ((c : Thread nD τ).loc main_arg2)) (m ((c : Thread nD τ).loc main_arg3))) := by
  have h1 : t.val % 4 = 3 := (flush1_4 t).mp hf
  have h0 : ¬t.val % 4 = 0 := by omega
  have hN : cfg1.N = 64 := N_1
  have htN : t.val < 64 := hN ▸ t.isLt
  show (cfg1.win 4).cut (grid1.coords t) ((dat1 (V2 m ρ) c).after 4 t) = _
  rw [after1_4]
  obtain ⟨e00, e01, e10, e11, e20, e21, e30, e31, e40, e41, eg⟩ := idx_facts1 t
  funext j
  obtain ⟨p, q, rfl⟩ : ∃ (p : Fin 1024) (q : Fin 64), j = ix2 p q := ⟨j 0, j 1, eq_ix2 j⟩
  have eC := outsAt1_C (V2 m ρ) c t h0 h1
  show (outsAt1 (V2 m ρ) c t.val t.isLt).1 (ix2 p q) = Cert.Spec.G _ _ _ _ (((cfg1.win 4).blk t).view.emb (ix2 p q))
  have eacc : accAtPt m ρ c p q t.val t.isLt = _ := congrFun (congrArg Prod.snd eC) (ix2 p q)
  dsimp only at eacc
  rw [sout1_C_apply] at eacc
  rw [congrFun (congrArg Prod.fst eC) (ix2 p q)]
  dsimp only
  rw [out1_C_4_apply, ← eacc]
  have hb : t.val / 4 < 16 := by omega
  have htv : t.val = 4 * (t.val / 4) + 3 := by omega
  have eagg := acc_last_eq m ρ c p q (t.val / 4) hb (by omega)
  rw [show accAtPt m ρ c p q t.val t.isLt = accAtPt m ρ c p q (4 * (t.val / 4) + 3) (by omega) from by congr 1 <;> omega, eagg]
  have hemb : ((cfg1.win 4).blk t).view.emb (ix2 p q) = ix2 (⟨1024 * (t.val / 4) + p.val, by omega⟩ : Fin 16384) q := by
    funext a; apply Fin.ext
    match a with
    | ⟨0, _⟩ => show win1_4.index t (0 : Fin 2) * 1024 + 1 * p.val = 1024 * (t.val / 4) + p.val; omega
    | ⟨1, _⟩ => show win1_4.index t (1 : Fin 2) * 64 + 1 * q.val = q.val; omega
  rw [hemb, Cert.Spec.G_apply]
  have hx2 : iblk1 (V2 m ρ) c 2 t (ix2 p (0 : Fin 1)) = m ((c : Thread nD τ).loc main_arg2) (ix1 (⟨1024 * (t.val / 4) + p.val, by omega⟩ : Fin 16384)) := by
    show V2 m ρ c main_v0 (((cfg1.win 2).blk t).view.emb (ix2 p (0 : Fin 1))) = _
    rw [show ((cfg1.win 2).blk t).view.emb (ix2 p (0 : Fin 1)) = ix2 (⟨1024 * (t.val / 4) + p.val, by omega⟩ : Fin 16384) (0 : Fin 1) from by
      funext a; apply Fin.ext
      match a with
      | ⟨0, _⟩ => show win1_2.index t (0 : Fin 2) * 1024 + 1 * p.val = 1024 * (t.val / 4) + p.val; omega
      | ⟨1, _⟩ => show win1_2.index t (1 : Fin 2) * 1 + 1 * 0 = 0; omega]
    exact V2_main_v0_apply m ρ c _ _
  have hx3 : iblk1 (V2 m ρ) c 3 t (ix2 p q) = m ((c : Thread nD τ).loc main_arg0) (ix2 (⟨1024 * (t.val / 4) + p.val, by omega⟩ : Fin 16384) q) := by
    show V2 m ρ c main_arg0 (((cfg1.win 3).blk t).view.emb (ix2 p q)) = _
    rw [show V2 m ρ c main_arg0 = m ((c : Thread nD τ).loc main_arg0) from W2_main_arg0 m ρ c]
    exact congrArg _ (show ((cfg1.win 3).blk t).view.emb (ix2 p q) = ix2 (⟨1024 * (t.val / 4) + p.val, by omega⟩ : Fin 16384) q from by
      funext a; apply Fin.ext
      match a with
      | ⟨0, _⟩ => show win1_3.index t (0 : Fin 2) * 1024 + 1 * p.val = 1024 * (t.val / 4) + p.val; omega
      | ⟨1, _⟩ => show win1_3.index t (1 : Fin 2) * 64 + 1 * q.val = q.val; omega)
  rw [hx2, hx3]

theorem mem_blk1 (t : Fin cfg1.N) (i : S16384x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v2).slice (win1_4.rect t)).set ↔ _
  rw [View.set_slice_whole, Rect.mem_set_unit]
  exact Iff.rfl

theorem cover1 (i : S16384x64.Idx) : ∃ t : Fin cfg1.N, (cfg1.win 4).flush t = true ∧ i ∈ ((cfg1.win 4).blk t).view.set := by
  have hi0 : (i 0).val < 16384 := (i 0).isLt
  have hi1 : (i 1).val < 64 := (i 1).isLt
  let t : Fin cfg1.N := ⟨4 * ((i 0).val / 1024) + 3, by rw [show cfg1.N = 64 from N_1]; omega⟩
  obtain ⟨e00, e01, e10, e11, e20, e21, e30, e31, e40, e41, eg⟩ := idx_facts1 t
  have ht : t.val = 4 * ((i 0).val / 1024) + 3 := rfl
  refine ⟨t, (flush1_4 t).mpr (by omega), ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 64 ≤ (i 1).val ∧ (i 1).val < win1_4.index t (1 : Fin 2) * 64 + 64; omega

/-- THE RESULT: after the second region the result array holds the specified function of the four arguments. -/
theorem final1 (c : Dev nD) : (dat1 (V2 m ρ) c).arrAt 4 cfg1.N
    = Cert.Spec.G (m ((c : Thread nD τ).loc main_arg0)) (m ((c : Thread nD τ).loc main_arg1)) (m ((c : Thread nD τ).loc main_arg2)) (m ((c : Thread nD τ).loc main_arg3)) :=
  (dat1 (V2 m ρ) c).arrAt_eq_of_cover 4 _ (fun t hf => flushed1_eq m ρ c t hf) cover1

theorem W3_main_v2 (c : Dev nD) : W3 m ρ c (Proc.devRef .tc main_v2)
    = Cert.Spec.G (m ((c : Thread nD τ).loc main_arg0)) (m ((c : Thread nD τ).loc main_arg1)) (m ((c : Thread nD τ).loc main_arg2)) (m ((c : Thread nD τ).loc main_arg3)) :=
  (W3_arr m ρ c 4).trans (final1 m ρ c)

/-- THE KERNEL'S RUN with the result named by the specification. -/
theorem run_spec : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono (fun r h c => ⟨(h c).1.trans (W3_main_v2 m ρ c), (h c).2⟩) (run_result m ρ)

end Cert.KernelIdeal.KValue

end
-- ==== Proof.RefIsSpec.lean ====
/-
  The reference computes the specification, index by index, on the extended reals.

  The reference is a chain of fifteen array operations on X : [16384, 64], A : [16384, 16384], w : [16384] and
  W : [64, 64]. Read at one index (p, q) of the result, with p a node and q a feature, the chain is:

    * the first contraction, at (k, q), is ∑ l, X (k, l) · W (l, q): the projected feature (X W) (k, q);
    * the second contraction, at (p, q), is ∑ k, A (p, k) · (X W) (k, q): the aggregation (A (X W)) (p, q);
    * the rectifier is the maximum of that aggregation with a constant array, every element of which is the word
      printed for 0.0: at (p, q) it is max ((A (X W)) (p, q)) zero;
    * w is laid out as a column [16384, 1] and the column repeated along the features [16384, 64]: a broadcast
      moves no value, so at (p, q) the result is w p whatever q is;
    * the constant array of the word printed for 1.0, minus w, is at p the difference one − w p, and it is laid
      out and repeated the same way, so at (p, q) it is one − w p;
    * the two products and the sum are taken element by element.

  So the result at (p, q) is  w p · max ((A (X W)) (p, q)) zero + (one − w p) · X (p, q),  which is the specification's
  value there. No law of arithmetic is used: the two sides are the same expression once every layout operation has
  been read at its index, and the only thing to prove is that the index each operand is read at is the one the
  specification names. The words for 0.0 and 1.0 are the same words on both sides and are never evaluated.

  Below: the index equations, one per operand; the equality of the two functions (`val_eq_spec` for the chain's last
  stage, `ref_eq_spec` for the same term written out as the run states it); and the run of the reference restated
  with the specification as its result (`run_spec`), from which the frame (`frame_ri`) keeps only the arguments.
-/
import proofs.«153434_j56341380989595_2_alg».proof.Defs
import proofs.«153434_j56341380989595_2_alg».proof.Proof.Spec
import proofs.«153434_j56341380989595_2_alg».proof.Proof.Gen.ReferenceIdeal.Read
import proofs.«153434_j56341380989595_2_alg».proof.Proof.Gen.Pre_finite_inputs
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each operand is read

  Every layout operation reads its operand at an index computed from the result's. Composed along the chain and
  evaluated at a result index (p, q), or at a contraction's summation index beside it, these are the
  specification's indices. Each equation holds coordinate by coordinate, by computation. -/

/-- The node weight under the first product: the column [16384, 1] read at (p, 0), then the vector read at p. -/
theorem w_idx (p : Fin 16384) (q : Fin 64) : idx_main_v2 (idx_main_v4 (ix2 p q)) = ix1 p :=
  funext fun a => Fin.ext (by match a with | ⟨0, _⟩ => rfl)

/-- The complementary weight under the second product: again the column at (p, 0), then the vector at p. -/
theorem cw_idx (p : Fin 16384) (q : Fin 64) : idx_main_v8 (idx_main_v9 (ix2 p q)) = ix1 p :=
  funext fun a => Fin.ext (by match a with | ⟨0, _⟩ => rfl)

/-- The aggregation at (p, q) reads the adjacency at (p, k), k the summed node. -/
theorem A_idx (p : Fin 16384) (q : Fin 64) (k : Fin 16384) : lidx_main_v1 (ix2 p q) k = ix2 p k :=
  funext fun a => Fin.ext (by match a with | ⟨0, _⟩ => rfl | ⟨1, _⟩ => rfl)

/-- The aggregation at (p, q) reads the projected features at (k, q). -/
theorem XW_idx (p : Fin 16384) (q : Fin 64) (k : Fin 16384) : ridx_main_v1 (ix2 p q) k = ix2 k q :=
  funext fun a => Fin.ext (by match a with | ⟨0, _⟩ => rfl | ⟨1, _⟩ => rfl)

/-- The projection at (k, q) reads the features at (k, l), l the summed feature. -/
theorem X_idx (k : Fin 16384) (q : Fin 64) (l : Fin 64) : lidx_main_v0 (ix2 k q) l = ix2 k l :=
  funext fun a => Fin.ext (by match a with | ⟨0, _⟩ => rfl | ⟨1, _⟩ => rfl)

/-- The projection at (k, q) reads the weight matrix at (l, q). -/
theorem W_idx (k : Fin 16384) (q : Fin 64) (l : Fin 64) : ridx_main_v0 (ix2 k q) l = ix2 l q :=
  funext fun a => Fin.ext (by match a with | ⟨0, _⟩ => rfl | ⟨1, _⟩ => rfl)

/-! ## The reference is the specification -/

/-- The last stage of the reference, as a function of the four argument arrays, is the specification. At a result
    index (p, q): the sum is of two products element by element; the first product is of the repeated weight, which
    is w p, and the rectified aggregation, which is the maximum of ∑ k, A (p, k) · ∑ l, X (k, l) · W (l, q) with the
    word for 0.0; the second is of the repeated difference, which is the word for 1.0 minus w p, and X (p, q). With
    the operands' indices identified this is the specification's expression, sum for sum and factor for factor. -/
theorem val_eq_spec (x0 : (⟨S16384x64, .f32⟩ : BufTy).Contents (Elt Ideal)) (x1 : (⟨S16384x16384, .f32⟩ : BufTy).Contents (Elt Ideal))
    (x2 : (⟨S16384, .f32⟩ : BufTy).Contents (Elt Ideal)) (x3 : (⟨S64x64, .f32⟩ : BufTy).Contents (Elt Ideal)) :
    val_main_v11 (F := Ideal) x0 x1 x2 x3 = Cert.Spec.G x0 x1 x2 x3 := by
  funext i
  obtain ⟨p, q, rfl⟩ : ∃ (p : Fin 16384) (q : Fin 64), i = ix2 p q := ⟨i 0, i 1, eq_ix2 i⟩
  rw [val_main_v11_apply, val_main_v5_apply, val_main_v10_apply, val_main_v4_apply, val_main_v2_apply, val_main_v3_apply,
    val_main_v1_apply, val_main_call0_v0_apply, val_main_call0_cst_apply, val_main_v9_apply, val_main_v8_apply,
    val_main_v7_apply, val_main_v6_apply, val_main_cst_apply]
  simp only [val_main_v0_apply, w_idx, cw_idx, A_idx, XW_idx, X_idx, W_idx, Ideal.addf_def, Ideal.mulf_def, Ideal.subf_def,
    Ideal.maximumf_def, Ideal.ofBits_def]
  rfl

/-- The same equality for the term written out: the composition of the fifteen operations, as the reference's run
    states its result, is the specification of the four argument arrays. The written-out term is the last stage by
    definition. -/
theorem ref_eq_spec (x0 : (⟨S16384x64, .f32⟩ : BufTy).Contents (Elt Ideal)) (x1 : (⟨S16384x16384, .f32⟩ : BufTy).Contents (Elt Ideal))
    (x2 : (⟨S16384, .f32⟩ : BufTy).Contents (Elt Ideal)) (x3 : (⟨S64x64, .f32⟩ : BufTy).Contents (Elt Ideal)) :
    addf (mulf (broadcastInDim S16384x64 ![0, 1] bcast_S16384x1_S16384x64_0_1 (broadcastInDim S16384x1 ![0] bcast_S16384_S16384x1_0 x2))
        (maximumf (Host.dotGeneral (F := Ideal) (φ₁ := .f32) (φ₂ := .f32) dot_S16384x16384_S16384x64_S16384x64_1_0_0_1_n_n none x1
            (Host.dotGeneral (F := Ideal) (φ₁ := .f32) (φ₂ := .f32) dot_S16384x64_S64x64_S16384x64_1_0_0_1_n_n none x0 x3))
          (broadcastInDim S16384x64 ![] bcast_S_S16384x64 (constant (F := Ideal) S_ .f32 0x00000000#32))))
      (mulf (broadcastInDim S16384x64 ![0, 1] bcast_S16384x1_S16384x64_0_1 (broadcastInDim S16384x1 ![0] bcast_S16384_S16384x1_0
          (subf (broadcastInDim S16384 ![] bcast_S_S16384 (constant (F := Ideal) S_ .f32 0x3F800000#32)) x2))) x0)
      = Cert.Spec.G x0 x1 x2 x3 :=
  (val_main_v11_eq (F := Ideal) x0 x1 x2 x3).trans (val_eq_spec x0 x1 x2 x3)

/-! ## The run, with the specification as its result -/

/-- From any memory with zero counters, every weakly fair execution of the reference terminates with its result
    array equal to the specification of the four argument arrays as they were at the start, and with those four
    arrays unchanged: the run's own statement, its result term replaced by the specification (`ref_eq_spec`). -/
theorem run_spec (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      fun r => ∀ c : Dev nD,
        r.2.mem ((c.tc : Thread nD τ).loc main_v11)
          = Cert.Spec.G (m' ((c.tc : Thread nD τ).loc main_arg0)) (m' ((c.tc : Thread nD τ).loc main_arg1))
              (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3) :=
  (θ_run (Cert.ReferenceIdeal.defs (F := Ideal)) _ _).mono
    (fun _ h c => ⟨(h c).1.trans (ref_eq_spec _ _ _ _), (h c).2⟩)
    (Cert.ReferenceIdeal.Value.run (F := Ideal) m' ρ')

/-- The reference runs and leaves its four argument arrays unchanged: the run's statement with the result dropped.
    The precondition on the arguments is not used. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  A graph-convolution layer with a per-node residual: for node features X : [16384, 64], a normalized adjacency
  A : [16384, 16384], node weights w : [16384] and an aggregation weight W : [64, 64], both programs compute

      out (i, j) = w i · max ((A (X W)) (i, j)) 0 + (1 − w i) · X (i, j).

  The kernel does it in two launches. The first forms the projected features X W, 4096 rows per grid point. The
  second walks a 16 × 4 grid of row tiles by reduction steps: each step adds to an accumulator sixteen chunk
  products of a 1024 × 256 piece of A with 256 rows of X W; the accumulator is reset at the first step of a row
  tile and, at the last, rectified, scaled by the node weights and combined with the node's own features into
  the result block. The reference applies the same formula to whole arrays.

  At the exact extended-real values a change of float format is the identity and a matrix product is the plain
  sum of products, so the only difference between the two sides is the GROUPING of the sum over the 16384
  columns of A: four steps of sixteen chunks of 256 against one sum. Sums in a commutative monoid regroup freely,
  so no finiteness of the inputs is used. The frames: each program runs to the end, faults nowhere and leaves its
  four arguments as launched — for the kernel, at the word level and at the exact values alike, by running both
  launches' bodies point by point (the accumulator carried through the second launch's invariant, its loop by
  an invariant over a symbolic trip); for the reference by its run read back. No operation of the kernel was
  rewritten for the exact reading, so that conjunct is trivial.
-/
import proofs.«153434_j56341380989595_2_alg».proof.Defs
import proofs.«153434_j56341380989595_2_alg».proof.Proof.Gen.Kernel
import proofs.«153434_j56341380989595_2_alg».proof.Proof.Gen.KernelIdeal
import proofs.«153434_j56341380989595_2_alg».proof.Proof.Gen.ReferenceIdeal
import proofs.«153434_j56341380989595_2_alg».proof.Proof.Gen.Pre_finite_inputs
import proofs.«153434_j56341380989595_2_alg».proof.Proof.Kernel.Main
import proofs.«153434_j56341380989595_2_alg».proof.Proof.KernelIdeal.Value1
import proofs.«153434_j56341380989595_2_alg».proof.Proof.RefIsSpec
import Idealize.ShloMosaic.Adequacy
import Idealize.ShloMosaic.Init

noncomputable section

namespace Cert.Proof

open Idealize.ShloMosaic Idealize.SL.Sem

/-- The kernel as printed, at the word level: it runs and its arguments end unchanged. -/
theorem frame_k : Cert.frame_Kernel := fun m ρ _ => Cert.Kernel.Hand.frame (F := Bits) m ρ

/-- The same of the kernel read at the exact values. -/
theorem frame_ki : Cert.frame_KernelIdeal := fun m ρ _ => Cert.KernelIdeal.Hand.frame (F := Ideal) m ρ

/-- No operation was rewritten for the exact reading. -/
theorem preserves : Cert.preserves_Kernel_KernelIdeal := trivial

/-- At the exact values the kernel's result array and the reference's both end at the one function of the four
    arguments, from memories that agree on them. -/
theorem algebraic : Cert.algebraic_KernelIdeal_ReferenceIdeal := by
  intro m g m' g' _ hagree
  refine ⟨_, Cert.KernelIdeal.KValue.run_spec m g, ?_⟩
  refine (θ_run (Cert.ReferenceIdeal.defs (F := Ideal)) _ _).mono (fun _ h c => ⟨(h c).1.trans ?_, (h c).2⟩)
    (Cert.ReferenceIdeal.RefValue.run_spec m' g')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
